-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S64 .f32) (main_arg16 : FVec F S64x2 .f32) (main_arg17 : FVec F S2 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x2 .f32 := Host.absf main_arg16
  let main_cst_28 : FVec F S_ .f32 := constant S_ .f32 0x7F800000#32
  let main_v75 : FVec F S64x2 .f32 := broadcastInDim S64x2 ![] bcast_S_S64x2 main_cst_28
  let main_v76 : IVec S64x2 1 := cmpf .olt main_v74 main_v75
  let main_c_29 : IVec S_ 1 := constantI S_ 1 1#1
  let main_v77 : IVec S_ 1 := (fun x v => Host.reduce IntOp.andi x v reducesTo_S64x2_S_d0_1 h_S_) main_v76 main_c_29
  let main_v78 : IVec S_ 1 := andi main_v73 main_v77
  let main_v79 : FVec F S2 .f32 := Host.absf main_arg17
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg12 : FVec F S128 .f32) (main_arg13 : FVec F S128 .f32) (main_arg14 : FVec F S128x64 .f32) (main_arg15 : FVec F S64 .f32) (main_arg16 : FVec F S64x2 .f32) (main_arg17 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_arg16 main_arg17 main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_arg16 : FVec F S64x2 .f32) (main_arg17 : FVec F S2 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_arg16 : FVec F S64x2 .f32) (main_arg17 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_arg16 : FVec F S64x2 .f32) (main_arg17 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S5000x128 : Shape := ⟨2, ![5000, 128]⟩
abbrev S5000x1 : Shape := ⟨2, ![5000, 1]⟩
abbrev S1x128 : Shape := ⟨2, ![1, 128]⟩
abbrev S100000x2 : Shape := ⟨2, ![100000, 2]⟩
abbrev S5000x2 : Shape := ⟨2, ![5000, 2]⟩
abbrev S5000x64 : Shape := ⟨2, ![5000, 64]⟩
abbrev S1x64 : Shape := ⟨2, ![1, 64]⟩
abbrev S1x2 : Shape := ⟨2, ![1, 2]⟩

abbrev nBuf : Space → Nat
  | .hbm => 68
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S100000, .i32⟩
  | .hbm, ⟨23, _⟩ => ⟨S1700000, .i32⟩
  | .hbm, ⟨24, _⟩ => ⟨S1700000, .i32⟩
  | .hbm, ⟨25, _⟩ => ⟨S_, .f32⟩
  | .hbm, ⟨26, _⟩ => ⟨S1700000, .f32⟩
  | .hbm, ⟨27, _⟩ => ⟨S_, .f32⟩
  | .hbm, ⟨28, _⟩ => ⟨S100000, .f32⟩
  | .hbm, ⟨29, _⟩ => ⟨S1700000x1, .i32⟩
  | .hbm, ⟨30, _⟩ => ⟨S100000, .f32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000x128, .f32⟩
  | .hbm, ⟨44, _⟩ => ⟨S_, .f32⟩
  | .hbm, ⟨45, _⟩ => ⟨S100000x128, .f32⟩
  | .hbm, ⟨46, _⟩ => ⟨S1700000x1, .i32⟩
  | .hbm, ⟨47, _⟩ => ⟨S100000x128, .f32⟩
  | .hbm, ⟨48, _⟩ => ⟨S128x128, .bf16⟩
  | .hbm, ⟨49, _⟩ => ⟨S128x128, .bf16⟩
  | .hbm, ⟨50, _⟩ => ⟨S100000x128, .bf16⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .bf16⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S128x64, .bf16⟩
  | .hbm, ⟨66, _⟩ => ⟨S64x2, .bf16⟩
  | .hbm, ⟨67, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .bf16⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S5000x128, .bf16⟩
  | .local _ .vmem, ⟨13, _⟩ => ⟨S5000x128, .bf16⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S128x64, .bf16⟩
  | .local _ .vmem, ⟨23, _⟩ => ⟨S64, .f32⟩
  | .local _ .vmem, ⟨24, _⟩ => ⟨S64x2, .bf16⟩
  | .local _ .vmem, ⟨25, _⟩ => ⟨S2, .f32⟩
  | .local _ .vmem, ⟨26, _⟩ => ⟨S5000x2, .f32⟩
  | .local _ .vmem, ⟨27, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x2 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S2 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x2 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bcast_S_S100000x1 : S_.BroadcastsInDim S100000x1 (![] : Fin 0 → Fin S100000x1.rank)
  bcast_S_S100000x128 : S_.BroadcastsInDim S100000x128 (![] : Fin 0 → Fin S100000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S100000x128.size a
  hwx0_10 : ∀ i : grid0.Coords, EltTy.bits .bf16 = 32 ∨ (Rect.block (s := S100000x128) S5000x128.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .bf16 = 32 ∨ (Rect.block (s := S128x64) S128x64.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x2.size a ≤ S64x2.size a
  hwx1_8 : ∀ i : grid1.Coords, EltTy.bits .bf16 = 32 ∨ (Rect.block (s := S64x2) S64x2.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S2.size a ≤ S2.size a
  hwx1_9 : ∀ i : grid1.Coords, EltTy.bits .f32 = 32 ∨ (Rect.block (s := S2) S2.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x2.size a ≤ S100000x2.size a
  hwx1_10 : ∀ i : grid1.Coords, EltTy.bits .f32 = 32 ∨ (Rect.block (s := S100000x2) S5000x2.size (cc1_transform_10 i) (hinb1_10 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S64x2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg17) S2.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v40) S5000x2.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1x128 : Shape := ⟨2, ![1, 128]⟩
abbrev S_ : Shape := ⟨0, ![]⟩
abbrev S1700000x1 : Shape := ⟨2, ![1700000, 1]⟩
abbrev S1700000x128 : Shape := ⟨2, ![1700000, 128]⟩
abbrev S100000x1 : Shape := ⟨2, ![100000, 1]⟩
abbrev S100000x64 : Shape := ⟨2, ![100000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S100000, .i32⟩
  | .hbm, ⟨19, _⟩ => ⟨S1x1600000, .i32⟩
  | .hbm, ⟨20, _⟩ => ⟨S1600000, .i32⟩
  | .hbm, ⟨21, _⟩ => ⟨S1700000, .i32⟩
  | .hbm, ⟨22, _⟩ => ⟨S1x1600000, .i32⟩
  | .hbm, ⟨23, _⟩ => ⟨S1600000, .i32⟩
  | .hbm, ⟨24, _⟩ => ⟨S1700000, .i32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S_, .f32⟩
  | .hbm, ⟨43, _⟩ => ⟨S1700000, .f32⟩
  | .hbm, ⟨44, _⟩ => ⟨S_, .f32⟩
  | .hbm, ⟨45, _⟩ => ⟨S100000, .f32⟩
  | .hbm, ⟨46, _⟩ => ⟨S1700000x1, .i32⟩
  | .hbm, ⟨47, _⟩ => ⟨S100000, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S_, .f32⟩
  | .hbm, ⟨88, _⟩ => ⟨S1700000, .f32⟩
  | .hbm, ⟨89, _⟩ => ⟨S_, .f32⟩
  | .hbm, ⟨90, _⟩ => ⟨S100000, .f32⟩
  | .hbm, ⟨91, _⟩ => ⟨S1700000x1, .i32⟩
  | .hbm, ⟨92, _⟩ => ⟨S100000, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S128, .f32⟩
  | .hbm, ⟨101, _⟩ => ⟨S128, .f32⟩
  | .hbm, ⟨102, _⟩ => ⟨S128, .f32⟩
  | .hbm, ⟨103, _⟩ => ⟨S1x128, .f32⟩
  | .hbm, ⟨104, _⟩ => ⟨S100000x128, .f32⟩
  | .hbm, ⟨105, _⟩ => ⟨S100000x128, .f32⟩
  | .hbm, ⟨106, _⟩ => ⟨S1x128, .f32⟩
  | .hbm, ⟨107, _⟩ => ⟨S100000x128, .f32⟩
  | .hbm, ⟨108, _⟩ => ⟨S100000x128, .f32⟩
  | .hbm, ⟨109, _⟩ => ⟨S1x128, .f32⟩
  | .hbm, ⟨110, _⟩ => ⟨S100000x128, .f32⟩
  | .hbm, ⟨111, _⟩ => ⟨S100000x128, .f32⟩
  | .hbm, ⟨112, _⟩ => ⟨S_, .f32⟩
  | .hbm, ⟨113, _⟩ => ⟨S100000x128, .f32⟩
  | .hbm, ⟨114, _⟩ => ⟨S100000x128, .f32⟩
  | .hbm, ⟨115, _⟩ => ⟨S100000x64, .f32⟩
  | .hbm, ⟨116, _⟩ => ⟨S1x64, .f32⟩
  | .hbm, ⟨117, _⟩ => ⟨S100000x64, .f32⟩
  | .hbm, ⟨118, _⟩ => ⟨S100000x64, .f32⟩
  | .hbm, ⟨119, _⟩ => ⟨S_, .f32⟩
  | .hbm, ⟨120, _⟩ => ⟨S100000x64, .f32⟩
  | .hbm, ⟨121, _⟩ => ⟨S100000x64, .f32⟩
  | .hbm, ⟨122, _⟩ => ⟨S100000x2, .f32⟩
  | .hbm, ⟨123, _⟩ => ⟨S1x2, .f32⟩
  | .hbm, ⟨124, _⟩ => ⟨S100000x2, .f32⟩
  | .hbm, ⟨125, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call0_cst : Ref sig .tc := ⟨.hbm, 67, rfl⟩
abbrev main_call0_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_4 : Ref sig .tc := ⟨.hbm, 74, rfl⟩
abbrev main_v48 : Ref sig .tc := ⟨.hbm, 75, rfl⟩
abbrev main_v49 : Ref sig .tc := ⟨.hbm, 76, rfl⟩
abbrev main_c_5 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_6 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_7 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_9 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call1_cst : Ref sig .tc := ⟨.hbm, 112, rfl⟩
abbrev main_call1_v0 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call2_cst : Ref sig .tc := ⟨.hbm, 119, rfl⟩
abbrev main_call2_v0 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S128 : S_.BroadcastsInDim S128 (![] : Fin 0 → Fin S128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.RunAll.lean ====
/-
  The run of the whole program with every buffer named: from any launch memory, every weakly fair
  execution of @main ends, nothing faulting, with each buffer the host program holds at the contents
  the fold of @main's four stretches gives it — the host operations before the first kernel, the first
  kernel's write-backs, the host operations between the kernels, the second kernel's write-backs. The
  result array and the unchanged arguments are read off that one statement.
-/
import proofs.«167313_j82454782148695_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every final state has every buffer the host program holds at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array ends at the last boundary's contents, and the arguments end as launched. -/
theorem run_result : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c)⟩)
    (run_all m ρ)

end Cert.KernelIdeal.RunAll

end
-- ==== Proof.Spec.lean ====
/-
  The graph network's stages as functions of whole arrays, index by index, on the extended reals, and
  the two laws that join the two programs.

  A node table `x : [N, K]` is aggregated along the edges: edge `e` carries the row of `x` its source
  word names (`rows`) to the node its destination word names, where the rows are summed (`seg`); the
  number of edges arriving at a node is `cnt`. One side applies the affine map `x ↦ x·W + b` (`lin`)
  to every node first and divides the aggregated sum by the count; the other multiplies the aggregated
  raw rows by the reciprocal of the count and applies the affine map afterwards. Over the reals the two
  agree because the affine map is linear in `x` and the bias, added once per arriving edge, is divided
  by exactly the number of arriving edges (`mean_lin`). Dividing by a nonzero real count is multiplying
  by its reciprocal on every extended real (`div_cnt`).
-/
import Idealize.ShloMosaic.PureOps.Ideal
import Idealize.ShloMosaic.PureOps.Ideal.Laws
import Idealize.ShloMosaic.Lib.ValueIdx

noncomputable section

open scoped BigOperators

namespace Cert.Gnn

open Idealize.ShloMosaic Idealize.ShloMosaic.ValueIdx

/-- A table of `n` rows and `c` columns of extended reals. -/
abbrev Mat (n c : Nat) := (⟨2, ![n, c]⟩ : Shape).Idx → EReal
/-- A vector of `c` extended reals. -/
abbrev Row (c : Nat) := (⟨1, ![c]⟩ : Shape).Idx → EReal
/-- A column of `M` signed 32-bit words: one node number per edge. -/
abbrev Col (M : Nat) := (⟨2, ![M, 1]⟩ : Shape).Idx → BitVec 32

/-- The affine map `x·W + b`, row by row. -/
def lin {N K J : Nat} (W : Mat K J) (b : Row J) (x : Mat N K) : Mat N J :=
  fun i => (∑ k : Fin K, x (ix2 (i 0) k) * W (ix2 k (i 1))) + b (ix1 (i 1))

/-- The sum, at node `n`, of the rows carried by the edges whose destination word is `n`. -/
def seg {N C M : Nat} (dst : Col M) (u : Mat M C) : Mat N C :=
  fun i => 0 + ∑ e : Fin M, if (dst (ix2 e (0 : Fin 1))).toInt = ((i 0).val : ℤ) then u (ix2 e (i 1)) else 0

/-- The number of edges whose destination word is `n`. -/
def cnt {N M : Nat} (dst : Col M) : Fin N → EReal :=
  fun n => 0 + ∑ e : Fin M, if (dst (ix2 e (0 : Fin 1))).toInt = (n.val : ℤ) then (1 : EReal) else 0

/-- The row each edge carries: the row of `x` its source word names, read signed and clamped into range. -/
def rows {N C M : Nat} (hN : 0 < N) (src : Col M) (x : Mat N C) : Mat M C :=
  fun i => x (ix2 (⟨min (src (ix2 (i 0) (0 : Fin 1))).toInt.toNat (N - 1), by omega⟩ : Fin N) (i 1))

/-- Normalisation by stored statistics, then the positive part:
    `max (((x − μ) · rsqrt (v + ε)) · g + β) z` with `z` the zero word. -/
def bnRelu {N C : Nat} (eps z : EReal) (g be mu v : Row C) (x : Mat N C) : Mat N C :=
  fun i => max ((((x i - mu (ix1 (i 1))) * Ideal.rsqrt (v (ix1 (i 1)) + eps)) * g (ix1 (i 1))) + be (ix1 (i 1))) z

/-- The positive part against the zero word. -/
def relu {N C : Nat} (z : EReal) (x : Mat N C) : Mat N C := fun i => max (x i) z

/-- Multiplying every row by the reciprocal of its node's count. -/
def scaleInv {N C M : Nat} (dst : Col M) (u : Mat N C) : Mat N C :=
  fun i => u i * Ideal.div 1 (cnt (N := N) dst (i 0))

/-- Dividing every row by its node's count. -/
def divCnt {N C M : Nat} (dst : Col M) (u : Mat N C) : Mat N C :=
  fun i => Ideal.div (u i) (cnt (N := N) dst (i 0))

/-- The word `1e-5` both programs add to a stored variance. -/
abbrev epsWord : EReal := Ideal.ofBits .f32 0x3727C5AC#32
/-- The zero word both programs take positive parts against. -/
abbrev zeroWord : EReal := Ideal.ofBits .f32 0x00000000#32

/-- The network as the reference computes it: each layer maps every node affinely, aggregates the images
    along the edges and divides by the count; normalisation and positive part; at the end a two-layer
    classifier on every node. -/
def netRef {N M K H C1 C2 : Nat} (hN : 0 < N) (src dst : Col M) (x : Mat N K)
    (W1 : Mat K H) (b1 g1 be1 m1 v1 : Row H) (W2 : Mat H H) (b2 g2 be2 m2 v2 : Row H)
    (Wc1 : Mat H C1) (bc1 : Row C1) (Wc2 : Mat C1 C2) (bc2 : Row C2) : Mat N C2 :=
  lin Wc2 bc2 (relu zeroWord (lin Wc1 bc1 (bnRelu epsWord zeroWord g2 be2 m2 v2
    (divCnt dst (seg dst (rows hN src (lin W2 b2 (bnRelu epsWord zeroWord g1 be1 m1 v1
      (divCnt dst (seg dst (rows hN src (lin W1 b1 x))))))))))))

/-- The network as the kernels compute it: the first layer aggregates the raw rows, scales them by the
    reciprocal count and only then maps them affinely; the second layer aggregates the mapped rows and
    scales by the reciprocal count. -/
def netKer {N M K H C1 C2 : Nat} (hN : 0 < N) (src dst : Col M) (x : Mat N K)
    (W1 : Mat K H) (b1 g1 be1 m1 v1 : Row H) (W2 : Mat H H) (b2 g2 be2 m2 v2 : Row H)
    (Wc1 : Mat H C1) (bc1 : Row C1) (Wc2 : Mat C1 C2) (bc2 : Row C2) : Mat N C2 :=
  lin Wc2 bc2 (relu zeroWord (lin Wc1 bc1 (bnRelu epsWord zeroWord g2 be2 m2 v2
    (scaleInv dst (seg dst (rows hN src (lin W2 b2 (bnRelu epsWord zeroWord g1 be1 m1 v1
      (lin W1 b1 (scaleInv dst (seg dst (rows hN src x))))))))))))

end Cert.Gnn

end
-- ==== Proof.KernelBody.lean ====
/-
  The two programs' bodies as the specification's functions, on the extended reals.

  Each body is a chain of elementwise operations, broadcasts and matrix products. At the ideal values a
  narrowing of the format is the identity, the elementwise operations are the extended reals' own, a
  vector cast to one row and broadcast over the rows reads the vector at the column, a one-column table
  broadcast over the columns reads the column at the row, and a matrix product into the zero splat is
  the sum over the contracted coordinate. Stage by stage: the scaling of every row by its node's factor,
  the affine map `x·W + b` (`lin`), normalisation with the positive part (`bnRelu`) and the positive
  part alone (`relu`); the bodies are compositions of these.
-/
import proofs.«167313_j82454782148695_2_alg».proof.Proof.Gen.KernelIdeal.Skeleton
import proofs.«167313_j82454782148695_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Body

open Cert.KernelIdeal Cert.KernelIdeal.Gen Cert.Gnn Idealize.ShloMosaic Idealize.ShloMosaic.ValueIdx

/-- A vector cast to one row, that row broadcast over `a` rows, reads at `(p, c)` the vector at `c`. -/
theorem rowB_apply {α : Type} {a b : ℕ} (v : (⟨1, ![b]⟩ : Shape).Idx → α)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A column broadcast over `b` columns reads, at `(p, c)`, the column at `p`. -/
theorem colB_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index of `dot_S5000x128_S128x128_S5000x128_1_0_0_1_n_n`: row of the output index. -/
theorem mmA_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's index: column the contraction coordinate. -/
theorem mmA_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index: row the contraction coordinate. -/
theorem mmA_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's index: column of the output index. -/
theorem mmA_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl
/-- The `[5000,128] × [128,128]` product into the zero splat is the sum over the contracted coordinate. -/
theorem mmA_apply (A : FVec Ideal S5000x128 .bf16) (B : FVec Ideal S128x128 .bf16) (p : Fin 5000) (q : Fin 128) :
    matmul dot_S5000x128_S128x128_S5000x128_1_0_0_1_n_n none A B (constant S5000x128 .f32 0x00000000#32) (ix2 p q)
      = ∑ k : Fin 128, A (ix2 p k) * B (ix2 k q) := by
  show FloatOps.matmul dot_S5000x128_S128x128_S5000x128_1_0_0_1_n_n none A B (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact mmA_lhs0 _ _
      | ⟨1, _⟩ => exact (mmA_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (mmA_rhs0 _ _).trans hk
      | ⟨1, _⟩ => exact mmA_rhs1 _ _)
  rw [el, er]

/-- The left operand's index of `dot_S5000x128_S128x64_S5000x64_1_0_0_1_n_n`: row of the output index. -/
theorem mmB_lhs0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's index: column the contraction coordinate. -/
theorem mmB_lhs1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's index: row the contraction coordinate. -/
theorem mmB_rhs0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's index: column of the output index. -/
theorem mmB_rhs1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl
/-- The `[5000,128] × [128,64]` product into the zero splat is the sum over the contracted coordinate. -/
theorem mmB_apply (A : FVec Ideal S5000x128 .bf16) (B : FVec Ideal S128x64 .bf16) (p : Fin 5000) (q : Fin 64) :
    matmul dot_S5000x128_S128x64_S5000x64_1_0_0_1_n_n none A B (constant S5000x64 .f32 0x00000000#32) (ix2 p q)
      = ∑ k : Fin 128, A (ix2 p k) * B (ix2 k q) := by
  show FloatOps.matmul dot_S5000x128_S128x64_S5000x64_1_0_0_1_n_n none A B (constant S5000x64 .f32 0x00000000#32) (ix2 p q) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact mmB_lhs0 _ _
      | ⟨1, _⟩ => exact (mmB_lhs1 _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (mmB_rhs0 _ _).trans hk
      | ⟨1, _⟩ => exact mmB_rhs1 _ _)
  rw [el, er]

/-- The left operand's index of `dot_S5000x64_S64x2_S5000x2_1_0_0_1_n_n`: row of the output index. -/
theorem mmC_lhs0 (i : S5000x2.Idx) (q : dot_S5000x64_S64x2_S5000x2_1_0_0_1_n_n.contr.Idx) :
    (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
/-- The left operand's index: column the contraction coordinate. -/
theorem mmC_lhs1 (i : S5000x2.Idx) (q : dot_S5000x64_S64x2_S5000x2_1_0_0_1_n_n.contr.Idx) :
    (dot_S5000x64_S64x2_S5000x2_1_0_0_1_n_n.lhsIdx i q 1).val = (q ⟨0, by decide⟩).val :=
  dot_S5000x64_S64x2_S5000x2_1_0_0_1_n_n.lhsIdx_val_of_single rfl i q
/-- The right operand's index: row the contraction coordinate. -/
theorem mmC_rhs0 (i : S5000x2.Idx) (q : dot_S5000x64_S64x2_S5000x2_1_0_0_1_n_n.contr.Idx) :
    (dot_S5000x64_S64x2_S5000x2_1_0_0_1_n_n.rhsIdx i q 0).val = (q ⟨0, by decide⟩).val :=
  dot_S5000x64_S64x2_S5000x2_1_0_0_1_n_n.rhsIdx_val_of_single rfl i q
/-- The right operand's index: column of the output index. -/
theorem mmC_rhs1 (i : S5000x2.Idx) (q : dot_S5000x64_S64x2_S5000x2_1_0_0_1_n_n.contr.Idx) :
    (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl
/-- The `[5000,64] × [64,2]` product into the zero splat is the sum over the contracted coordinate. -/
theorem mmC_apply (A : FVec Ideal S5000x64 .bf16) (B : FVec Ideal S64x2 .bf16) (p : Fin 5000) (q : Fin 2) :
    matmul dot_S5000x64_S64x2_S5000x2_1_0_0_1_n_n none A B (constant S5000x2 .f32 0x00000000#32) (ix2 p q)
      = ∑ k : Fin 64, A (ix2 p k) * B (ix2 k q) := by
  show FloatOps.matmul dot_S5000x64_S64x2_S5000x2_1_0_0_1_n_n none A B (constant S5000x2 .f32 0x00000000#32) (ix2 p q) = _
  rw [Ideal.matmul_constant_zero_apply, ← Equiv.sum_comp (contrEquiv1 dot_S5000x64_S64x2_S5000x2_1_0_0_1_n_n 64 rfl rfl).symm]
  refine Finset.sum_congr rfl fun k _ => ?_
  have hk := contrEquiv1_symm_val dot_S5000x64_S64x2_S5000x2_1_0_0_1_n_n 64 rfl rfl k
  have el : dot_S5000x64_S64x2_S5000x2_1_0_0_1_n_n.lhsIdx (ix2 p q) ((contrEquiv1 dot_S5000x64_S64x2_S5000x2_1_0_0_1_n_n 64 rfl rfl).symm k) = ix2 p k :=
    funext fun a => Fin.ext (by
      match a with
      | ⟨0, _⟩ => exact mmC_lhs0 _ _
      | ⟨1, _⟩ => exact (mmC_lhs1 _ _).trans hk)
  have er : dot_S5000x64_S64x2_S5000x2_1_0_0_1_n_n.rhsIdx (ix2 p q) ((contrEquiv1 dot_S5000x64_S64x2_S5000x2_1_0_0_1_n_n 64 rfl rfl).symm k) = ix2 k q :=
    funext fun a => Fin.ext (by
      match a with
      | ⟨0, _⟩ => exact (mmC_rhs0 _ _).trans hk
      | ⟨1, _⟩ => exact mmC_rhs1 _ _)
  rw [el, er]

/-- The scaling stage as the program writes it: every row times its node's one-column factor. -/
def scaleK {a b : ℕ} (h0 : (⟨2, ![a, b]⟩ : Shape).ShapeCasts ⟨2, ![a, b]⟩)
    (h1 : (⟨2, ![a, 1]⟩ : Shape).ShapeCasts ⟨2, ![a, 1]⟩)
    (h2 : (⟨2, ![a, 1]⟩ : Shape).Broadcasts ⟨2, ![a, b]⟩)
    (x : FVec Ideal ⟨2, ![a, b]⟩ .f32) (r : FVec Ideal ⟨2, ![a, 1]⟩ .f32) : FVec Ideal ⟨2, ![a, b]⟩ .f32 :=
  mulf (shapeCast ⟨2, ![a, b]⟩ x h0) (broadcastTo ⟨2, ![a, b]⟩ (shapeCast ⟨2, ![a, 1]⟩ r h1) h2)

/-- The scaling stage, index by index. -/
theorem scaleK_eq {a b : ℕ} (h0 : (⟨2, ![a, b]⟩ : Shape).ShapeCasts ⟨2, ![a, b]⟩)
    (h1 : (⟨2, ![a, 1]⟩ : Shape).ShapeCasts ⟨2, ![a, 1]⟩)
    (h2 : (⟨2, ![a, 1]⟩ : Shape).Broadcasts ⟨2, ![a, b]⟩)
    (x : FVec Ideal ⟨2, ![a, b]⟩ .f32) (r : FVec Ideal ⟨2, ![a, 1]⟩ .f32) :
    scaleK h0 h1 h2 x r = fun i => x i * r (ix2 (i 0) (0 : Fin 1)) := by
  funext j
  obtain ⟨p, q, rfl⟩ : ∃ (p : Fin a) (q : Fin b), j = ix2 p q := ⟨j 0, j 1, eq_ix2 j⟩
  show shapeCast ⟨2, ![a, b]⟩ x h0 (ix2 p q)
      * broadcastTo ⟨2, ![a, b]⟩ (shapeCast ⟨2, ![a, 1]⟩ r h1) h2 (ix2 p q)
    = x (ix2 p q) * r (ix2 p (0 : Fin 1))
  rw [shapeCast_self, shapeCast_self, colB_apply]

/-- The affine stage as the program writes it: the product with the weights into the zero splat, plus
    the bias row broadcast over the rows. -/
def linK {m k n : ℕ} (D : DotDims ⟨2, ![m, k]⟩ ⟨2, ![k, n]⟩ ⟨2, ![m, n]⟩)
    (hlt : FTy.bits .bf16 < FTy.bits .f32)
    (h0 : (⟨2, ![k, n]⟩ : Shape).ShapeCasts ⟨2, ![k, n]⟩)
    (h1 : (⟨1, ![n]⟩ : Shape).ShapeCasts ⟨2, ![1, n]⟩)
    (h2 : (⟨2, ![1, n]⟩ : Shape).Broadcasts ⟨2, ![m, n]⟩)
    (W : FVec Ideal ⟨2, ![k, n]⟩ .bf16) (b : FVec Ideal ⟨1, ![n]⟩ .f32) (X : FVec Ideal ⟨2, ![m, k]⟩ .f32) :
    FVec Ideal ⟨2, ![m, n]⟩ .f32 :=
  addf (matmul D none (truncf .bf16 X hlt) (shapeCast ⟨2, ![k, n]⟩ W h0) (constant ⟨2, ![m, n]⟩ .f32 0x00000000#32))
    (broadcastTo ⟨2, ![m, n]⟩ (shapeCast ⟨2, ![1, n]⟩ b h1) h2)

/-- The affine stage is the specification's `lin`, given the product's value at an index. -/
theorem linK_eq {m k n : ℕ} (D : DotDims ⟨2, ![m, k]⟩ ⟨2, ![k, n]⟩ ⟨2, ![m, n]⟩)
    (hD : ∀ (A : FVec Ideal ⟨2, ![m, k]⟩ .bf16) (B : FVec Ideal ⟨2, ![k, n]⟩ .bf16) (p : Fin m) (q : Fin n),
      matmul D none A B (constant ⟨2, ![m, n]⟩ .f32 0x00000000#32) (ix2 p q) = ∑ c : Fin k, A (ix2 p c) * B (ix2 c q))
    (hlt : FTy.bits .bf16 < FTy.bits .f32)
    (h0 : (⟨2, ![k, n]⟩ : Shape).ShapeCasts ⟨2, ![k, n]⟩)
    (h1 : (⟨1, ![n]⟩ : Shape).ShapeCasts ⟨2, ![1, n]⟩)
    (h2 : (⟨2, ![1, n]⟩ : Shape).Broadcasts ⟨2, ![m, n]⟩)
    (W : FVec Ideal ⟨2, ![k, n]⟩ .bf16) (b : FVec Ideal ⟨1, ![n]⟩ .f32) (X : FVec Ideal ⟨2, ![m, k]⟩ .f32) :
    linK D hlt h0 h1 h2 W b X = lin (N := m) (K := k) (J := n) W b X := by
  funext j
  obtain ⟨p, q, rfl⟩ : ∃ (p : Fin m) (q : Fin n), j = ix2 p q := ⟨j 0, j 1, eq_ix2 j⟩
  show matmul D none (truncf .bf16 X hlt) (shapeCast ⟨2, ![k, n]⟩ W h0) (constant ⟨2, ![m, n]⟩ .f32 0x00000000#32) (ix2 p q)
      + broadcastTo ⟨2, ![m, n]⟩ (shapeCast ⟨2, ![1, n]⟩ b h1) h2 (ix2 p q)
    = (∑ c : Fin k, X (ix2 p c) * W (ix2 c q)) + b (ix1 q)
  rw [hD, rowB_apply, shapeCast_self]
  rfl

/-- Normalisation by stored statistics and the positive part, as the program writes them. -/
def normK {a b : ℕ} (h1 : (⟨1, ![b]⟩ : Shape).ShapeCasts ⟨2, ![1, b]⟩)
    (h2 : (⟨2, ![1, b]⟩ : Shape).Broadcasts ⟨2, ![a, b]⟩)
    (var mu g be : FVec Ideal ⟨1, ![b]⟩ .f32) (X : FVec Ideal ⟨2, ![a, b]⟩ .f32) : FVec Ideal ⟨2, ![a, b]⟩ .f32 :=
  maximumf
    (addf
      (mulf
        (mulf (subf X (broadcastTo ⟨2, ![a, b]⟩ (shapeCast ⟨2, ![1, b]⟩ mu h1) h2))
          (broadcastTo ⟨2, ![a, b]⟩
            (shapeCast ⟨2, ![1, b]⟩ (rsqrt (addf var (broadcast ⟨1, ![b]⟩ (Scalar.ofBits .f32 0x3727C5AC#32)))) h1) h2))
        (broadcastTo ⟨2, ![a, b]⟩ (shapeCast ⟨2, ![1, b]⟩ g h1) h2))
      (broadcastTo ⟨2, ![a, b]⟩ (shapeCast ⟨2, ![1, b]⟩ be h1) h2))
    (broadcast ⟨2, ![a, b]⟩ (Scalar.ofBits .f32 0x00000000#32))

/-- That stage is the specification's `bnRelu`. -/
theorem normK_eq {a b : ℕ} (h1 : (⟨1, ![b]⟩ : Shape).ShapeCasts ⟨2, ![1, b]⟩)
    (h2 : (⟨2, ![1, b]⟩ : Shape).Broadcasts ⟨2, ![a, b]⟩)
    (var mu g be : FVec Ideal ⟨1, ![b]⟩ .f32) (X : FVec Ideal ⟨2, ![a, b]⟩ .f32) :
    normK h1 h2 var mu g be X = bnRelu (N := a) (C := b) epsWord zeroWord g be mu var X := by
  funext j
  obtain ⟨p, q, rfl⟩ : ∃ (p : Fin a) (q : Fin b), j = ix2 p q := ⟨j 0, j 1, eq_ix2 j⟩
  show max
      ((((X (ix2 p q) - broadcastTo ⟨2, ![a, b]⟩ (shapeCast ⟨2, ![1, b]⟩ mu h1) h2 (ix2 p q))
          * broadcastTo ⟨2, ![a, b]⟩
              (shapeCast ⟨2, ![1, b]⟩ (rsqrt (addf var (broadcast ⟨1, ![b]⟩ (Scalar.ofBits .f32 0x3727C5AC#32)))) h1) h2 (ix2 p q))
          * broadcastTo ⟨2, ![a, b]⟩ (shapeCast ⟨2, ![1, b]⟩ g h1) h2 (ix2 p q))
        + broadcastTo ⟨2, ![a, b]⟩ (shapeCast ⟨2, ![1, b]⟩ be h1) h2 (ix2 p q))
      zeroWord
    = max ((((X (ix2 p q) - mu (ix1 q)) * Ideal.rsqrt (var (ix1 q) + epsWord)) * g (ix1 q)) + be (ix1 q)) zeroWord
  rw [rowB_apply, rowB_apply, rowB_apply, rowB_apply]
  rfl

/-- The positive part as the program writes it. -/
def reluK {a b : ℕ} (X : FVec Ideal ⟨2, ![a, b]⟩ .f32) : FVec Ideal ⟨2, ![a, b]⟩ .f32 :=
  maximumf X (broadcast ⟨2, ![a, b]⟩ (Scalar.ofBits .f32 0x00000000#32))

/-- It is the specification's `relu`. -/
theorem reluK_eq {a b : ℕ} (X : FVec Ideal ⟨2, ![a, b]⟩ .f32) :
    reluK X = relu (N := a) (C := b) zeroWord X := rfl

/-- The first program's body, stage by stage. -/
theorem pay0_unfold (v0 : Vec Ideal S5000x128 .f32) (v2 : Vec Ideal S5000x1 .f32) (v7 : Vec Ideal S128x128 .bf16)
    (v10 v14 v18 v25 v29 : Vec Ideal S128 .f32) (v36 : Vec Ideal S128x128 .bf16) (v39 : Vec Ideal S128 .f32) :
    k0_pay1 (F := Ideal) (k0_pay2 v0 v2 v7 v10 v14 v18 v25 v29 v36) (k0_pay3 v39)
      = linK dot_S5000x128_S128x128_S5000x128_1_0_0_1_n_n bitsLt_bf16_f32 shapeCasts_S128x128_S128x128
          shapeCasts_S128_S1x128 broadcasts_S1x128_S5000x128 v36 v39
          (normK shapeCasts_S128_S1x128 broadcasts_S1x128_S5000x128 v14 v18 v25 v29
            (linK dot_S5000x128_S128x128_S5000x128_1_0_0_1_n_n bitsLt_bf16_f32 shapeCasts_S128x128_S128x128
              shapeCasts_S128_S1x128 broadcasts_S1x128_S5000x128 v7 v10
              (scaleK shapeCasts_S5000x128_S5000x128 shapeCasts_S5000x1_S5000x1 broadcasts_S5000x1_S5000x128 v0 v2))) :=
  rfl

/-- The first program's body is: scale, map affinely, normalise and take the positive part, map affinely. -/
theorem pay0_eq (v0 : Vec Ideal S5000x128 .f32) (v2 : Vec Ideal S5000x1 .f32) (v7 : Vec Ideal S128x128 .bf16)
    (v10 v14 v18 v25 v29 : Vec Ideal S128 .f32) (v36 : Vec Ideal S128x128 .bf16) (v39 : Vec Ideal S128 .f32) :
    k0_pay1 (F := Ideal) (k0_pay2 v0 v2 v7 v10 v14 v18 v25 v29 v36) (k0_pay3 v39)
      = lin v36 v39 (bnRelu epsWord zeroWord v25 v29 v18 v14 (lin v7 v10 (fun i => v0 i * v2 (ix2 (i 0) (0 : Fin 1))))) := by
  rw [pay0_unfold, scaleK_eq, linK_eq _ mmA_apply, normK_eq, linK_eq _ mmA_apply]

/-- The second program's body, stage by stage. -/
theorem pay1_unfold (v0 : Vec Ideal S5000x128 .f32) (v2 : Vec Ideal S5000x1 .f32) (v6 v10 v17 v21 : Vec Ideal S128 .f32)
    (v28 : Vec Ideal S128x64 .bf16) (v31 : Vec Ideal S64 .f32) (v38 : Vec Ideal S64x2 .bf16) (v41 : Vec Ideal S2 .f32) :
    k1_pay1 (F := Ideal) (k1_pay2 v0 v2 v6 v10 v17 v21 v28 v31 v38) v41
      = linK dot_S5000x64_S64x2_S5000x2_1_0_0_1_n_n bitsLt_bf16_f32 shapeCasts_S64x2_S64x2
          shapeCasts_S2_S1x2 broadcasts_S1x2_S5000x2 v38 v41
          (reluK
            (linK dot_S5000x128_S128x64_S5000x64_1_0_0_1_n_n bitsLt_bf16_f32 shapeCasts_S128x64_S128x64
              shapeCasts_S64_S1x64 broadcasts_S1x64_S5000x64 v28 v31
              (normK shapeCasts_S128_S1x128 broadcasts_S1x128_S5000x128 v6 v10 v17 v21
                (scaleK shapeCasts_S5000x128_S5000x128 shapeCasts_S5000x1_S5000x1 broadcasts_S5000x1_S5000x128 v0 v2)))) :=
  rfl

/-- The second program's body is: scale, normalise and take the positive part, map affinely, take the
    positive part, map affinely. -/
theorem pay1_eq (v0 : Vec Ideal S5000x128 .f32) (v2 : Vec Ideal S5000x1 .f32) (v6 v10 v17 v21 : Vec Ideal S128 .f32)
    (v28 : Vec Ideal S128x64 .bf16) (v31 : Vec Ideal S64 .f32) (v38 : Vec Ideal S64x2 .bf16) (v41 : Vec Ideal S2 .f32) :
    k1_pay1 (F := Ideal) (k1_pay2 v0 v2 v6 v10 v17 v21 v28 v31 v38) v41
      = lin v38 v41 (relu zeroWord (lin v28 v31 (bnRelu epsWord zeroWord v17 v21 v10 v6 (fun i => v0 i * v2 (ix2 (i 0) (0 : Fin 1)))))) := by
  rw [pay1_unfold, scaleK_eq, normK_eq, linK_eq _ mmB_apply, reluK_eq, linK_eq _ mmC_apply]

end Cert.KernelIdeal.Body

end
-- ==== Proof.SpecRows.lean ====
/-
  Every stage that acts on each row by itself reads, at row `p`, only row `p` of its input: if row `p` of
  one table is row `r` of another, the stage's result at `(p, q)` on the first is its result at `(r, q)` on
  the second. A block of rows of a table is such a pair (row `p` of the block is row `first + p` of the
  table), which is how a result computed block by block is the result computed on the whole table.
-/
import proofs.«167313_j82454782148695_2_alg».proof.Proof.Spec

noncomputable section

open scoped BigOperators

namespace Cert.Gnn

open Idealize.ShloMosaic Idealize.ShloMosaic.ValueIdx

/-- The affine map at `(p, q)` reads row `p` only. -/
theorem lin_row {N N' K J : Nat} (W : Mat K J) (b : Row J) (X : Mat N K) (X' : Mat N' K) (p : Fin N) (r : Fin N')
    (h : ∀ k : Fin K, X (ix2 p k) = X' (ix2 r k)) (q : Fin J) :
    lin W b X (ix2 p q) = lin W b X' (ix2 r q) := by
  show (∑ k : Fin K, X (ix2 p k) * W (ix2 k q)) + b (ix1 q) = (∑ k : Fin K, X' (ix2 r k) * W (ix2 k q)) + b (ix1 q)
  simp only [h]

/-- Normalisation and positive part at `(p, q)` read entry `(p, q)` only. -/
theorem bnRelu_row {N N' C : Nat} (eps z : EReal) (g be mu v : Row C) (X : Mat N C) (X' : Mat N' C) (p : Fin N)
    (r : Fin N') (h : ∀ k : Fin C, X (ix2 p k) = X' (ix2 r k)) (q : Fin C) :
    bnRelu eps z g be mu v X (ix2 p q) = bnRelu eps z g be mu v X' (ix2 r q) := by
  show max ((((X (ix2 p q) - mu (ix1 q)) * Ideal.rsqrt (v (ix1 q) + eps)) * g (ix1 q)) + be (ix1 q)) z
    = max ((((X' (ix2 r q) - mu (ix1 q)) * Ideal.rsqrt (v (ix1 q) + eps)) * g (ix1 q)) + be (ix1 q)) z
  rw [h q]

/-- The positive part at `(p, q)` reads entry `(p, q)` only. -/
theorem relu_row {N N' C : Nat} (z : EReal) (X : Mat N C) (X' : Mat N' C) (p : Fin N) (r : Fin N')
    (h : ∀ k : Fin C, X (ix2 p k) = X' (ix2 r k)) (q : Fin C) :
    relu z X (ix2 p q) = relu z X' (ix2 r q) := by
  show max (X (ix2 p q)) z = max (X' (ix2 r q)) z
  rw [h q]

/-- The reciprocal counts as a column. -/
def invCol {N M : Nat} (dst : Col M) : Mat N 1 := fun i => Ideal.div 1 (cnt (N := N) dst (i 0))

/-- What the first kernel computes from the aggregated rows `x` and the reciprocal counts `ic`: the rows
    scaled, the first affine map, normalisation and positive part, the second affine map. -/
def stage1 {N K H : Nat} (x : Mat N K) (ic : Mat N 1) (W1 : Mat K H) (b1 g1 be1 m1 v1 : Row H) (W2 : Mat H H)
    (b2 : Row H) : Mat N H :=
  lin W2 b2 (bnRelu epsWord zeroWord g1 be1 m1 v1 (lin W1 b1 (fun i => x i * ic (ix2 (i 0) (0 : Fin 1)))))

/-- What the second kernel computes from the aggregated rows `h` and the reciprocal counts `ic`: the rows
    scaled, normalisation and positive part, the two-layer classifier. -/
def stage2 {N H C1 C2 : Nat} (h : Mat N H) (ic : Mat N 1) (g2 be2 m2 v2 : Row H) (Wc1 : Mat H C1) (bc1 : Row C1)
    (Wc2 : Mat C1 C2) (bc2 : Row C2) : Mat N C2 :=
  lin Wc2 bc2 (relu zeroWord (lin Wc1 bc1 (bnRelu epsWord zeroWord g2 be2 m2 v2
    (fun i => h i * ic (ix2 (i 0) (0 : Fin 1))))))

/-- The first kernel's function at `(p, q)` reads row `p` of the rows and of the counts only. -/
theorem stage1_row {N N' K H : Nat} (x : Mat N K) (ic : Mat N 1) (x' : Mat N' K) (ic' : Mat N' 1)
    (W1 : Mat K H) (b1 g1 be1 m1 v1 : Row H) (W2 : Mat H H) (b2 : Row H) (p : Fin N) (r : Fin N')
    (h0 : ∀ k : Fin K, x (ix2 p k) = x' (ix2 r k)) (h1 : ic (ix2 p (0 : Fin 1)) = ic' (ix2 r (0 : Fin 1)))
    (q : Fin H) :
    stage1 x ic W1 b1 g1 be1 m1 v1 W2 b2 (ix2 p q) = stage1 x' ic' W1 b1 g1 be1 m1 v1 W2 b2 (ix2 r q) :=
  lin_row W2 b2 _ _ p r (fun k => bnRelu_row epsWord zeroWord g1 be1 m1 v1 _ _ p r
    (fun k' => lin_row W1 b1 _ _ p r (fun k'' => by
      show x (ix2 p k'') * ic (ix2 p (0 : Fin 1)) = x' (ix2 r k'') * ic' (ix2 r (0 : Fin 1))
      rw [h0 k'', h1]) k') k) q

/-- The second kernel's function at `(p, q)` reads row `p` of the rows and of the counts only. -/
theorem stage2_row {N N' H C1 C2 : Nat} (h : Mat N H) (ic : Mat N 1) (h' : Mat N' H) (ic' : Mat N' 1)
    (g2 be2 m2 v2 : Row H) (Wc1 : Mat H C1) (bc1 : Row C1) (Wc2 : Mat C1 C2) (bc2 : Row C2) (p : Fin N) (r : Fin N')
    (h0 : ∀ k : Fin H, h (ix2 p k) = h' (ix2 r k)) (h1 : ic (ix2 p (0 : Fin 1)) = ic' (ix2 r (0 : Fin 1)))
    (q : Fin C2) :
    stage2 h ic g2 be2 m2 v2 Wc1 bc1 Wc2 bc2 (ix2 p q) = stage2 h' ic' g2 be2 m2 v2 Wc1 bc1 Wc2 bc2 (ix2 r q) :=
  lin_row Wc2 bc2 _ _ p r (fun k => relu_row zeroWord _ _ p r
    (fun k' => lin_row Wc1 bc1 _ _ p r (fun k'' => bnRelu_row epsWord zeroWord g2 be2 m2 v2 _ _ p r (fun k3 => by
      show h (ix2 p k3) * ic (ix2 p (0 : Fin 1)) = h' (ix2 r k3) * ic' (ix2 r (0 : Fin 1))
      rw [h0 k3, h1]) k'') k') k) q

/-- The kernels' form of the network is the second kernel's function of the aggregated result of the first
    kernel's function of the aggregated node table, both at the reciprocal counts. -/
theorem netKer_eq_stages {N M K H C1 C2 : Nat} (hN : 0 < N) (src dst : Col M) (x : Mat N K)
    (W1 : Mat K H) (b1 g1 be1 m1 v1 : Row H) (W2 : Mat H H) (b2 g2 be2 m2 v2 : Row H)
    (Wc1 : Mat H C1) (bc1 : Row C1) (Wc2 : Mat C1 C2) (bc2 : Row C2) :
    netKer hN src dst x W1 b1 g1 be1 m1 v1 W2 b2 g2 be2 m2 v2 Wc1 bc1 Wc2 bc2
      = stage2 (seg dst (rows hN src
          (stage1 (seg dst (rows hN src x)) (invCol dst) W1 b1 g1 be1 m1 v1 W2 b2)))
          (invCol dst) g2 be2 m2 v2 Wc1 bc1 Wc2 bc2 := rfl

end Cert.Gnn

end
-- ==== Proof.Region0.lean ====
/-
  The first kernel's result array, from the arrays it is entered with.

  The grid has 20 points; at point `t` the kernel is handed rows `5000·t … 5000·t + 4999` of the aggregated
  node table and of the reciprocal-count column, and the whole of every parameter array, and writes back
  the same rows of its result. Row `p` of that block is `stage1` of the handed blocks at row `p`, and
  `stage1` reads only row `p`, which is row `5000·t + p` of the tables: so the block is the same rows of
  `stage1` of the whole tables. The 20 blocks tile the result array (row `r` lies in block `r / 5000`),
  so the array ends holding `stage1` of the entry arrays.
-/
import proofs.«167313_j82454782148695_2_alg».proof.Proof.Gen.KernelIdeal.Frame
import proofs.«167313_j82454782148695_2_alg».proof.Proof.KernelBody
import proofs.«167313_j82454782148695_2_alg».proof.Proof.SpecRows
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The grid has 20 points. -/
theorem t_lt (t : Fin cfg0.N) : t.val < 20 := lt_of_lt_of_eq t.isLt N_0

/-- The printed index maps, decided over the grid: the two row-blocked inputs and the output sit at block
    `(t, 0)`, every parameter array at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ win0_3.index t (0 : Fin 1) = 0 ∧ win0_4.index t (0 : Fin 1) = 0 ∧ win0_5.index t (0 : Fin 1) = 0
    ∧ win0_6.index t (0 : Fin 1) = 0 ∧ win0_7.index t (0 : Fin 1) = 0
    ∧ (win0_8.index t (0 : Fin 2) = 0 ∧ win0_8.index t (1 : Fin 2) = 0)
    ∧ win0_9.index t (0 : Fin 1) = 0
    ∧ (win0_10.index t (0 : Fin 2) = t.val ∧ win0_10.index t (1 : Fin 2) = 0) :=
  (by decide +kernel : ∀ t : Fin grid0.N, _)

/-- Row `p` of point `t`'s blocks is this row of the tables. -/
def rowOf (t : Fin cfg0.N) (p : Fin 5000) : Fin 100000 :=
  ⟨5000 * t.val + p.val, by have := t_lt t; have := p.isLt; omega⟩

/-- The aggregated rows' block at point `t`, row `p`, is row `5000·t + p` of the table. -/
theorem blk0_apply (c : Dev nD) (t : Fin cfg0.N) (p : Fin 5000) (k : Fin 128) :
    (iblk0 V c 0 t : Vec Ideal S5000x128 .f32) (ix2 p k)
      = (V c main_v23 : S100000x128.Idx → Elt Ideal .f32) (ix2 (rowOf t p) k) := by
  obtain ⟨⟨e0, e1⟩, -⟩ := idx_facts t
  unfold iblk0
  rw [View.read_apply]
  show V c main_v23 _ = V c main_v23 _
  congr 1
  funext a
  apply Fin.ext
  match a with
  | ⟨0, _⟩ => show win0_0.index t 0 * 5000 + 1 * p.val = 5000 * t.val + p.val; rw [e0]; omega
  | ⟨1, _⟩ => show win0_0.index t 1 * 128 + 1 * k.val = k.val; rw [e1]; omega

/-- The reciprocal counts' block at point `t`, row `p`, is row `5000·t + p` of the column. -/
theorem blk1_apply (c : Dev nD) (t : Fin cfg0.N) (p : Fin 5000) :
    (iblk0 V c 1 t : Vec Ideal S5000x1 .f32) (ix2 p (0 : Fin 1))
      = (V c main_v13 : S100000x1.Idx → Elt Ideal .f32) (ix2 (rowOf t p) (0 : Fin 1)) := by
  obtain ⟨-, ⟨e0, e1⟩, -⟩ := idx_facts t
  unfold iblk0
  rw [View.read_apply]
  show V c main_v13 _ = V c main_v13 _
  congr 1
  funext a
  apply Fin.ext
  match a with
  | ⟨0, _⟩ => show win0_1.index t 0 * 5000 + 1 * p.val = 5000 * t.val + p.val; rw [e0]; omega
  | ⟨1, _⟩ => show win0_1.index t 1 * 1 + 1 * 0 = 0; rw [e1]

/-- A parameter array's block at any point is the whole array. -/
theorem blk2_eq (c : Dev nD) (t : Fin cfg0.N) :
    (iblk0 V c 2 t : Vec Ideal S128x128 .bf16) = (V c main_v24 : S128x128.Idx → Elt Ideal .bf16) := by
  obtain ⟨-, -, ⟨e0, e1⟩, -⟩ := idx_facts t
  funext y
  unfold iblk0
  rw [View.read_apply]
  show V c main_v24 _ = V c main_v24 y
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

theorem blk8_eq (c : Dev nD) (t : Fin cfg0.N) :
    (iblk0 V c 8 t : Vec Ideal S128x128 .bf16) = (V c main_v25 : S128x128.Idx → Elt Ideal .bf16) := by
  obtain ⟨-, -, -, -, -, -, -, -, ⟨e0, e1⟩, -⟩ := idx_facts t
  funext y
  unfold iblk0
  rw [View.read_apply]
  show V c main_v25 _ = V c main_v25 y
  congr 1
  funext a
  apply Fin.ext
  match a with
  | ⟨0, _⟩ => show win0_8.index t 0 * 128 + 1 * (y 0).val = (y 0).val; rw [e0]; omega
  | ⟨1, _⟩ => show win0_8.index t 1 * 128 + 1 * (y 1).val = (y 1).val; rw [e1]; omega

theorem blk3_eq (c : Dev nD) (t : Fin cfg0.N) :
    (iblk0 V c 3 t : Vec Ideal S128 .f32) = (V c main_arg3 : S128.Idx → Elt Ideal .f32) := by
  obtain ⟨-, -, -, e0, -⟩ := idx_facts t
  funext y
  unfold iblk0
  rw [View.read_apply]
  show V c main_arg3 _ = V c main_arg3 y
  congr 1
  funext a
  apply Fin.ext
  match a with
  | ⟨0, _⟩ => show win0_3.index t 0 * 128 + 1 * (y 0).val = (y 0).val; rw [e0]; omega

theorem blk4_eq (c : Dev nD) (t : Fin cfg0.N) :
    (iblk0 V c 4 t : Vec Ideal S128 .f32) = (V c main_arg4 : S128.Idx → Elt Ideal .f32) := by
  obtain ⟨-, -, -, -, e0, -⟩ := idx_facts t
  funext y
  unfold iblk0
  rw [View.read_apply]
  show V c main_arg4 _ = V c main_arg4 y
  congr 1
  funext a
  apply Fin.ext
  match a with
  | ⟨0, _⟩ => show win0_4.index t 0 * 128 + 1 * (y 0).val = (y 0).val; rw [e0]; omega

theorem blk5_eq (c : Dev nD) (t : Fin cfg0.N) :
    (iblk0 V c 5 t : Vec Ideal S128 .f32) = (V c main_arg5 : S128.Idx → Elt Ideal .f32) := by
  obtain ⟨-, -, -, -, -, e0, -⟩ := idx_facts t
  funext y
  unfold iblk0
  rw [View.read_apply]
  show V c main_arg5 _ = V c main_arg5 y
  congr 1
  funext a
  apply Fin.ext
  match a with
  | ⟨0, _⟩ => show win0_5.index t 0 * 128 + 1 * (y 0).val = (y 0).val; rw [e0]; omega

theorem blk6_eq (c : Dev nD) (t : Fin cfg0.N) :
    (iblk0 V c 6 t : Vec Ideal S128 .f32) = (V c main_arg6 : S128.Idx → Elt Ideal .f32) := by
  obtain ⟨-, -, -, -, -, -, e0, -⟩ := idx_facts t
  funext y
  unfold iblk0
  rw [View.read_apply]
  show V c main_arg6 _ = V c main_arg6 y
  congr 1
  funext a
  apply Fin.ext
  match a with
  | ⟨0, _⟩ => show win0_6.index t 0 * 128 + 1 * (y 0).val = (y 0).val; rw [e0]; omega

theorem blk7_eq (c : Dev nD) (t : Fin cfg0.N) :
    (iblk0 V c 7 t : Vec Ideal S128 .f32) = (V c main_arg7 : S128.Idx → Elt Ideal .f32) := by
  obtain ⟨-, -, -, -, -, -, -, e0, -⟩ := idx_facts t
  funext y
  unfold iblk0
  rw [View.read_apply]
  show V c main_arg7 _ = V c main_arg7 y
  congr 1
  funext a
  apply Fin.ext
  match a with
  | ⟨0, _⟩ => show win0_7.index t 0 * 128 + 1 * (y 0).val = (y 0).val; rw [e0]; omega

theorem blk9_eq (c : Dev nD) (t : Fin cfg0.N) :
    (iblk0 V c 9 t : Vec Ideal S128 .f32) = (V c main_arg9 : S128.Idx → Elt Ideal .f32) := by
  obtain ⟨-, -, -, -, -, -, -, -, -, e0, -⟩ := idx_facts t
  funext y
  unfold iblk0
  rw [View.read_apply]
  show V c main_arg9 _ = V c main_arg9 y
  congr 1
  funext a
  apply Fin.ext
  match a with
  | ⟨0, _⟩ => show win0_9.index t 0 * 128 + 1 * (y 0).val = (y 0).val; rw [e0]; omega

/-- The result array the first kernel leaves: `stage1` of the arrays it is entered with. -/
def result (c : Dev nD) : S100000x128.Idx → Elt Ideal .bf16 :=
  stage1 (V c main_v23 : S100000x128.Idx → Elt Ideal .f32) (V c main_v13 : S100000x1.Idx → Elt Ideal .f32)
    (V c main_v24 : S128x128.Idx → Elt Ideal .bf16) (V c main_arg3 : S128.Idx → Elt Ideal .f32)
    (V c main_arg4 : S128.Idx → Elt Ideal .f32) (V c main_arg5 : S128.Idx → Elt Ideal .f32)
    (V c main_arg6 : S128.Idx → Elt Ideal .f32) (V c main_arg7 : S128.Idx → Elt Ideal .f32)
    (V c main_v25 : S128x128.Idx → Elt Ideal .bf16) (V c main_arg9 : S128.Idx → Elt Ideal .f32)

/-- What point `t` writes back is block `t` of `result`. -/
theorem flushed_eq (c : Dev nD) (t : Fin cfg0.N) :
    (dat0 V c).flushed 10 t = ((cfg0.win 10).blk t).view.read (Elt Ideal) (result V c) := by
  obtain ⟨-, -, -, -, -, -, -, -, -, -, ⟨e0, e1⟩⟩ := idx_facts t
  show (cfg0.win 10).cut (grid0.coords t) ((dat0 V c).after 10 t) = _
  rw [after0_10]
  unfold out0_10
  rw [View.canon_unit_zero hz2]
  simp only [View.ld_unit_zero (S := S5000x128) hz2, View.ld_unit_zero (S := S5000x1) hz2,
    View.ld_unit_zero (S := S128x128) hz2, View.ld_unit_zero (S := S128) hz1]
  rw [Body.pay0_eq, blk2_eq V c t, blk3_eq V c t, blk4_eq V c t, blk5_eq V c t, blk6_eq V c t, blk7_eq V c t,
    blk8_eq V c t, blk9_eq V c t]
  funext j
  obtain ⟨p, q, rfl⟩ : ∃ (p : Fin 5000) (q : Fin 128), j = ix2 p q := ⟨j 0, j 1, eq_ix2 j⟩
  rw [View.read_apply]
  have hemb : ((cfg0.win 10).blk t).view.emb (ix2 p q) = (ix2 (rowOf t p) q : S100000x128.Idx) := by
    funext a
    apply Fin.ext
    match a with
    | ⟨0, _⟩ => show win0_10.index t 0 * 5000 + 1 * p.val = 5000 * t.val + p.val; rw [e0]; omega
    | ⟨1, _⟩ => show win0_10.index t 1 * 128 + 1 * q.val = q.val; rw [e1]; omega
  rw [hemb]
  exact stage1_row (iblk0 V c 0 t : Vec Ideal S5000x128 .f32) (iblk0 V c 1 t : Vec Ideal S5000x1 .f32)
    (V c main_v23 : S100000x128.Idx → Elt Ideal .f32) (V c main_v13 : S100000x1.Idx → Elt Ideal .f32)
    _ _ _ _ _ _ _ _ p (rowOf t p) (blk0_apply V c t p) (blk1_apply V c t p) q

/-- An index of the array is in point `t`'s block iff each coordinate is in the block's range on its axis. -/
theorem mem_blk (t : Fin cfg0.N) (i : S100000x128.Idx) :
    i ∈ ((cfg0.win 10).blk t).view.set ↔ ∀ a : Fin 2, win0_10.index t a * S5000x128.size a ≤ (i a).val
      ∧ (i a).val < win0_10.index t a * S5000x128.size a + S5000x128.size a := by
  show i ∈ ((View.whole main_v26).slice (win0_10.rect t)).set ↔ _
  rw [View.set_slice_whole, Rect.mem_set_unit]
  exact Iff.rfl

/-- Every row of the result lies in some point's block: row `r` in block `r / 5000`. -/
theorem cover (i : S100000x128.Idx) :
    ∃ t : Fin cfg0.N, (cfg0.win 10).flush t = true ∧ i ∈ ((cfg0.win 10).blk t).view.set := by
  have hi0 : (i 0).val < 100000 := (i 0).isLt
  have hi1 : (i 1).val < 128 := (i 1).isLt
  let t : Fin cfg0.N := ⟨(i 0).val / 5000, lt_of_lt_of_eq (show (i 0).val / 5000 < 20 by omega) N_0.symm⟩
  obtain ⟨-, -, -, -, -, -, -, -, -, -, ⟨e0, e1⟩⟩ := idx_facts t
  have ht : t.val = (i 0).val / 5000 := rfl
  refine ⟨t, flush0_10 t, ?_⟩
  rw [mem_blk]
  intro a
  match a with
  | ⟨0, _⟩ => show win0_10.index t 0 * 5000 ≤ (i 0).val ∧ (i 0).val < win0_10.index t 0 * 5000 + 5000; rw [e0, ht]; omega
  | ⟨1, _⟩ => show win0_10.index t 1 * 128 ≤ (i 1).val ∧ (i 1).val < win0_10.index t 1 * 128 + 128; rw [e1]; omega

/-- The result array after the first kernel. -/
theorem final (c : Dev nD) : (dat0 V c).arrAt 10 cfg0.N = result V c :=
  (dat0 V c).arrAt_eq_of_cover 10 (result V c) (fun t _ => flushed_eq V c t) cover

end Cert.KernelIdeal.Region0

end
-- ==== Proof.Region1.lean ====
/-
  The second kernel's result array, from the arrays it is entered with.

  The grid has 20 points; at point `t` the kernel is handed rows `5000·t … 5000·t + 4999` of the aggregated
  second-layer rows and of the reciprocal-count column, and the whole of every parameter array, and writes
  back the same rows of the two-column result. Row `p` of that block is `stage2` of the handed blocks at
  row `p`, and `stage2` reads only row `p`, which is row `5000·t + p` of the tables: so the block is the
  same rows of `stage2` of the whole tables. The 20 blocks tile the result array (row `r` lies in block
  `r / 5000`), so the array ends holding `stage2` of the entry arrays.
-/
import proofs.«167313_j82454782148695_2_alg».proof.Proof.Gen.KernelIdeal.Frame
import proofs.«167313_j82454782148695_2_alg».proof.Proof.KernelBody
import proofs.«167313_j82454782148695_2_alg».proof.Proof.SpecRows
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The grid has 20 points. -/
theorem t_lt (t : Fin cfg1.N) : t.val < 20 := lt_of_lt_of_eq t.isLt N_1

/-- The printed index maps, decided over the grid: the two row-blocked inputs and the output sit at block
    `(t, 0)`, every parameter array at block 0. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ win1_2.index t (0 : Fin 1) = 0 ∧ win1_3.index t (0 : Fin 1) = 0 ∧ win1_4.index t (0 : Fin 1) = 0
    ∧ win1_5.index t (0 : Fin 1) = 0
    ∧ (win1_6.index t (0 : Fin 2) = 0 ∧ win1_6.index t (1 : Fin 2) = 0)
    ∧ win1_7.index t (0 : Fin 1) = 0
    ∧ (win1_8.index t (0 : Fin 2) = 0 ∧ win1_8.index t (1 : Fin 2) = 0)
    ∧ win1_9.index t (0 : Fin 1) = 0
    ∧ (win1_10.index t (0 : Fin 2) = t.val ∧ win1_10.index t (1 : Fin 2) = 0) :=
  (by decide +kernel : ∀ t : Fin grid1.N, _)

/-- Row `p` of point `t`'s blocks is this row of the tables. -/
def rowOf (t : Fin cfg1.N) (p : Fin 5000) : Fin 100000 :=
  ⟨5000 * t.val + p.val, by have := t_lt t; have := p.isLt; omega⟩

/-- The aggregated rows' block at point `t`, row `p`, is row `5000·t + p` of the table. -/
theorem blk0_apply (c : Dev nD) (t : Fin cfg1.N) (p : Fin 5000) (k : Fin 128) :
    (iblk1 V c 0 t : Vec Ideal S5000x128 .f32) (ix2 p k)
      = (V c main_v37 : S100000x128.Idx → Elt Ideal .f32) (ix2 (rowOf t p) k) := by
  obtain ⟨⟨e0, e1⟩, -⟩ := idx_facts t
  unfold iblk1
  rw [View.read_apply]
  show V c main_v37 _ = V c main_v37 _
  congr 1
  funext a
  apply Fin.ext
  match a with
  | ⟨0, _⟩ => show win1_0.index t 0 * 5000 + 1 * p.val = 5000 * t.val + p.val; rw [e0]; omega
  | ⟨1, _⟩ => show win1_0.index t 1 * 128 + 1 * k.val = k.val; rw [e1]; omega

/-- The reciprocal counts' block at point `t`, row `p`, is row `5000·t + p` of the column. -/
theorem blk1_apply (c : Dev nD) (t : Fin cfg1.N) (p : Fin 5000) :
    (iblk1 V c 1 t : Vec Ideal S5000x1 .f32) (ix2 p (0 : Fin 1))
      = (V c main_v13 : S100000x1.Idx → Elt Ideal .f32) (ix2 (rowOf t p) (0 : Fin 1)) := by
  obtain ⟨-, ⟨e0, e1⟩, -⟩ := idx_facts t
  unfold iblk1
  rw [View.read_apply]
  show V c main_v13 _ = V c main_v13 _
  congr 1
  funext a
  apply Fin.ext
  match a with
  | ⟨0, _⟩ => show win1_1.index t 0 * 5000 + 1 * p.val = 5000 * t.val + p.val; rw [e0]; omega
  | ⟨1, _⟩ => show win1_1.index t 1 * 1 + 1 * 0 = 0; rw [e1]

/-- A parameter array's block at any point is the whole array. -/
theorem blk2_eq (c : Dev nD) (t : Fin cfg1.N) :
    (iblk1 V c 2 t : Vec Ideal S128 .f32) = (V c main_arg10 : S128.Idx → Elt Ideal .f32) := by
  obtain ⟨-, -, e0, -⟩ := idx_facts t
  funext y
  unfold iblk1
  rw [View.read_apply]
  show V c main_arg10 _ = V c main_arg10 y
  congr 1
  funext a
  apply Fin.ext
  match a with
  | ⟨0, _⟩ => show win1_2.index t 0 * 128 + 1 * (y 0).val = (y 0).val; rw [e0]; omega

theorem blk3_eq (c : Dev nD) (t : Fin cfg1.N) :
    (iblk1 V c 3 t : Vec Ideal S128 .f32) = (V c main_arg11 : S128.Idx → Elt Ideal .f32) := by
  obtain ⟨-, -, -, e0, -⟩ := idx_facts t
  funext y
  unfold iblk1
  rw [View.read_apply]
  show V c main_arg11 _ = V c main_arg11 y
  congr 1
  funext a
  apply Fin.ext
  match a with
  | ⟨0, _⟩ => show win1_3.index t 0 * 128 + 1 * (y 0).val = (y 0).val; rw [e0]; omega

theorem blk4_eq (c : Dev nD) (t : Fin cfg1.N) :
    (iblk1 V c 4 t : Vec Ideal S128 .f32) = (V c main_arg12 : S128.Idx → Elt Ideal .f32) := by
  obtain ⟨-, -, -, -, e0, -⟩ := idx_facts t
  funext y
  unfold iblk1
  rw [View.read_apply]
  show V c main_arg12 _ = V c main_arg12 y
  congr 1
  funext a
  apply Fin.ext
  match a with
  | ⟨0, _⟩ => show win1_4.index t 0 * 128 + 1 * (y 0).val = (y 0).val; rw [e0]; omega

theorem blk5_eq (c : Dev nD) (t : Fin cfg1.N) :
    (iblk1 V c 5 t : Vec Ideal S128 .f32) = (V c main_arg13 : S128.Idx → Elt Ideal .f32) := by
  obtain ⟨-, -, -, -, -, e0, -⟩ := idx_facts t
  funext y
  unfold iblk1
  rw [View.read_apply]
  show V c main_arg13 _ = V c main_arg13 y
  congr 1
  funext a
  apply Fin.ext
  match a with
  | ⟨0, _⟩ => show win1_5.index t 0 * 128 + 1 * (y 0).val = (y 0).val; rw [e0]; omega

theorem blk6_eq (c : Dev nD) (t : Fin cfg1.N) :
    (iblk1 V c 6 t : Vec Ideal S128x64 .bf16) = (V c main_v38 : S128x64.Idx → Elt Ideal .bf16) := by
  obtain ⟨-, -, -, -, -, -, ⟨e0, e1⟩, -⟩ := idx_facts t
  funext y
  unfold iblk1
  rw [View.read_apply]
  show V c main_v38 _ = V c main_v38 y
  congr 1
  funext a
  apply Fin.ext
  match a with
  | ⟨0, _⟩ => show win1_6.index t 0 * 128 + 1 * (y 0).val = (y 0).val; rw [e0]; omega
  | ⟨1, _⟩ => show win1_6.index t 1 * 64 + 1 * (y 1).val = (y 1).val; rw [e1]; omega

theorem blk7_eq (c : Dev nD) (t : Fin cfg1.N) :
    (iblk1 V c 7 t : Vec Ideal S64 .f32) = (V c main_arg15 : S64.Idx → Elt Ideal .f32) := by
  obtain ⟨-, -, -, -, -, -, -, e0, -⟩ := idx_facts t
  funext y
  unfold iblk1
  rw [View.read_apply]
  show V c main_arg15 _ = V c main_arg15 y
  congr 1
  funext a
  apply Fin.ext
  match a with
  | ⟨0, _⟩ => show win1_7.index t 0 * 64 + 1 * (y 0).val = (y 0).val; rw [e0]; omega

theorem blk8_eq (c : Dev nD) (t : Fin cfg1.N) :
    (iblk1 V c 8 t : Vec Ideal S64x2 .bf16) = (V c main_v39 : S64x2.Idx → Elt Ideal .bf16) := by
  obtain ⟨-, -, -, -, -, -, -, -, ⟨e0, e1⟩, -⟩ := idx_facts t
  funext y
  unfold iblk1
  rw [View.read_apply]
  show V c main_v39 _ = V c main_v39 y
  congr 1
  funext a
  apply Fin.ext
  match a with
  | ⟨0, _⟩ => show win1_8.index t 0 * 64 + 1 * (y 0).val = (y 0).val; rw [e0]; omega
  | ⟨1, _⟩ => show win1_8.index t 1 * 2 + 1 * (y 1).val = (y 1).val; rw [e1]; omega

theorem blk9_eq (c : Dev nD) (t : Fin cfg1.N) :
    (iblk1 V c 9 t : Vec Ideal S2 .f32) = (V c main_arg17 : S2.Idx → Elt Ideal .f32) := by
  obtain ⟨-, -, -, -, -, -, -, -, -, e0, -⟩ := idx_facts t
  funext y
  unfold iblk1
  rw [View.read_apply]
  show V c main_arg17 _ = V c main_arg17 y
  congr 1
  funext a
  apply Fin.ext
  match a with
  | ⟨0, _⟩ => show win1_9.index t 0 * 2 + 1 * (y 0).val = (y 0).val; rw [e0]; omega

/-- The result array the second kernel leaves: `stage2` of the arrays it is entered with. -/
def result (c : Dev nD) : S100000x2.Idx → Elt Ideal .f32 :=
  stage2 (V c main_v37 : S100000x128.Idx → Elt Ideal .f32) (V c main_v13 : S100000x1.Idx → Elt Ideal .f32)
    (V c main_arg10 : S128.Idx → Elt Ideal .f32) (V c main_arg11 : S128.Idx → Elt Ideal .f32)
    (V c main_arg12 : S128.Idx → Elt Ideal .f32) (V c main_arg13 : S128.Idx → Elt Ideal .f32)
    (V c main_v38 : S128x64.Idx → Elt Ideal .bf16) (V c main_arg15 : S64.Idx → Elt Ideal .f32)
    (V c main_v39 : S64x2.Idx → Elt Ideal .bf16) (V c main_arg17 : S2.Idx → Elt Ideal .f32)

/-- What point `t` writes back is block `t` of `result`. -/
theorem flushed_eq (c : Dev nD) (t : Fin cfg1.N) :
    (dat1 V c).flushed 10 t = ((cfg1.win 10).blk t).view.read (Elt Ideal) (result V c) := by
  obtain ⟨-, -, -, -, -, -, -, -, -, -, ⟨e0, e1⟩⟩ := idx_facts t
  show (cfg1.win 10).cut (grid1.coords t) ((dat1 V c).after 10 t) = _
  rw [after1_10]
  unfold out1_10
  rw [View.canon_unit_zero hz2]
  simp only [View.ld_unit_zero (S := S5000x128) hz2, View.ld_unit_zero (S := S5000x1) hz2,
    View.ld_unit_zero (S := S128x64) hz2, View.ld_unit_zero (S := S64x2) hz2,
    View.ld_unit_zero (S := S128) hz1, View.ld_unit_zero (S := S64) hz1, View.ld_unit_zero (S := S2) hz1]
  rw [Body.pay1_eq, blk2_eq V c t, blk3_eq V c t, blk4_eq V c t, blk5_eq V c t, blk6_eq V c t, blk7_eq V c t,
    blk8_eq V c t, blk9_eq V c t]
  funext j
  obtain ⟨p, q, rfl⟩ : ∃ (p : Fin 5000) (q : Fin 2), j = ix2 p q := ⟨j 0, j 1, eq_ix2 j⟩
  rw [View.read_apply]
  have hemb : ((cfg1.win 10).blk t).view.emb (ix2 p q) = (ix2 (rowOf t p) q : S100000x2.Idx) := by
    funext a
    apply Fin.ext
    match a with
    | ⟨0, _⟩ => show win1_10.index t 0 * 5000 + 1 * p.val = 5000 * t.val + p.val; rw [e0]; omega
    | ⟨1, _⟩ => show win1_10.index t 1 * 2 + 1 * q.val = q.val; rw [e1]; omega
  rw [hemb]
  exact stage2_row (iblk1 V c 0 t : Vec Ideal S5000x128 .f32) (iblk1 V c 1 t : Vec Ideal S5000x1 .f32)
    (V c main_v37 : S100000x128.Idx → Elt Ideal .f32) (V c main_v13 : S100000x1.Idx → Elt Ideal .f32)
    _ _ _ _ _ _ _ _ p (rowOf t p) (blk0_apply V c t p) (blk1_apply V c t p) q

/-- An index of the array is in point `t`'s block iff each coordinate is in the block's range on its axis. -/
theorem mem_blk (t : Fin cfg1.N) (i : S100000x2.Idx) :
    i ∈ ((cfg1.win 10).blk t).view.set ↔ ∀ a : Fin 2, win1_10.index t a * S5000x2.size a ≤ (i a).val
      ∧ (i a).val < win1_10.index t a * S5000x2.size a + S5000x2.size a := by
  show i ∈ ((View.whole main_v40).slice (win1_10.rect t)).set ↔ _
  rw [View.set_slice_whole, Rect.mem_set_unit]
  exact Iff.rfl

/-- Every row of the result lies in some point's block: row `r` in block `r / 5000`. -/
theorem cover (i : S100000x2.Idx) :
    ∃ t : Fin cfg1.N, (cfg1.win 10).flush t = true ∧ i ∈ ((cfg1.win 10).blk t).view.set := by
  have hi0 : (i 0).val < 100000 := (i 0).isLt
  have hi1 : (i 1).val < 2 := (i 1).isLt
  let t : Fin cfg1.N := ⟨(i 0).val / 5000, lt_of_lt_of_eq (show (i 0).val / 5000 < 20 by omega) N_1.symm⟩
  obtain ⟨-, -, -, -, -, -, -, -, -, -, ⟨e0, e1⟩⟩ := idx_facts t
  have ht : t.val = (i 0).val / 5000 := rfl
  refine ⟨t, flush1_10 t, ?_⟩
  rw [mem_blk]
  intro a
  match a with
  | ⟨0, _⟩ => show win1_10.index t 0 * 5000 ≤ (i 0).val ∧ (i 0).val < win1_10.index t 0 * 5000 + 5000; rw [e0, ht]; omega
  | ⟨1, _⟩ => show win1_10.index t 1 * 2 ≤ (i 1).val ∧ (i 1).val < win1_10.index t 1 * 2 + 2; rw [e1]; omega

/-- The result array after the second kernel. -/
theorem final (c : Dev nD) : (dat1 V c).arrAt 10 cfg1.N = result V c :=
  (dat1 V c).arrAt_eq_of_cover 10 (result V c) (fun t _ => flushed_eq V c t) cover

end Cert.KernelIdeal.Region1

end
-- ==== Proof.LibRows.lean ====
/-
  Row-indexed gather and accumulating scatter read at an index.

  A table of rows is gathered, or accumulated into, by a column of start indices (one signed word per
  row of the updates): the dimension numbers are those of `x[idx]` and of `segment_sum` along the
  leading axis. The gather reads the row at the start word, read signed and clamped into range; the
  scatter adds to entry `(n, …)` the updates `(e, …)` whose start word, read signed, is `n`.
-/
import Idealize.ShloMosaic.PureOps.Ideal
import Idealize.ShloMosaic.Lib.ValueIdx

noncomputable section

open scoped BigOperators

namespace Cert.Rows

open Idealize.ShloMosaic Idealize.ShloMosaic.ValueIdx

/-! Facts about axis numbers, decided once at the literal ranks. -/
private theorem fin2_one_ne_zero : (1 : Fin 2) ≠ 0 := by decide
private theorem fin3_one_ne_zero : (1 : Fin 3) ≠ 0 := by decide
private theorem fin3_two_ne_zero : (2 : Fin 3) ≠ 0 := by decide

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-- Gather of whole rows of a rank-2 table `[N, C]` at a column `[M, 1]` of start indices. -/
abbrev gather2 (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows at `(e, a)`: the table at the row the start word `idx[e, 0]` names, read signed
    and clamped into `[0, N − 1]`, column `a`. -/
theorem gather2_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (a : Fin C) :
    Host.gather (gather2 N C M wf) x idx (ix2 e a)
      = x (ix2 (⟨min (idx (ix2 e (0 : Fin 1))).toInt.toNat (N - 1), by omega⟩ : Fin N) a) := by
  unfold Host.gather
  congr 1
  funext ax
  refine Fin.ext ?_
  match ax with
  | ⟨0, _⟩ =>
    show (gather2 N C M wf).start (ix2 e a) idx 0 + (gather2 N C M wf).batchCoord (ix2 e a) 0
      + (gather2 N C M wf).offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather2 N C M wf).startIndexMap from List.mem_singleton.mpr rfl)]
    have hsi : (gather2 N C M wf).siIdx (ix2 e a) ⟨List.idxOf (0 : Fin 2) (gather2 N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gather2 N C M wf).start (ix2 e a) idx 1 + (gather2 N C M wf).batchCoord (ix2 e a) 1
      + (gather2 N C M wf).offCoord (ix2 e a) 1 = _
    rw [GatherDims.batchCoord_eq_zero _ _ _ List.not_mem_nil]
    unfold GatherDims.start
    rw [dif_neg (show (1 : Fin 2) ∉ (gather2 N C M wf).startIndexMap from fun h => fin2_one_ne_zero (List.mem_singleton.mp h))]
    unfold GatherDims.offCoord
    rw [dif_pos (show (1 : Fin 2) ∈ (gather2 N C M wf).sKept from (GatherDims.mem_sKept _ _).2 ⟨fun h => fin2_one_ne_zero (List.mem_singleton.mp h), List.not_mem_nil⟩)]
    simp only [Nat.zero_add, Nat.add_zero]
    rfl

/-- Gather of whole slabs of a rank-3 table `[N, B, C]` at a column `[M, 1]` of start indices. -/
abbrev gather3 (N B C M : Nat)
    (wf : GatherDims.WF ⟨3, ![N, B, C]⟩ ⟨2, ![M, 1]⟩ ⟨3, ![M, B, C]⟩ [1, 2] [0] [] [0] [] 1 ![1, B, C]) :
    GatherDims ⟨3, ![N, B, C]⟩ ⟨2, ![M, 1]⟩ ⟨3, ![M, B, C]⟩ where
  offsetDims := [1, 2]
  collapsedSliceDims := [0]
  operandBatchingDims := []
  startIndicesBatchingDims := []
  startIndexMap := [0]
  indexVectorDim := 1
  sliceSizes := ![1, B, C]
  wf := wf

/-- The gather of slabs at `(e, b, a)`. -/
theorem gather3_apply {α : Type} {N B C M w : Nat} (hN : 0 < N)
    (wf : GatherDims.WF ⟨3, ![N, B, C]⟩ ⟨2, ![M, 1]⟩ ⟨3, ![M, B, C]⟩ [1, 2] [0] [] [0] [] 1 ![1, B, C])
    (x : (⟨3, ![N, B, C]⟩ : Shape).Idx → α) (idx : IVec ⟨2, ![M, 1]⟩ w) (e : Fin M) (b : Fin B) (a : Fin C) :
    Host.gather (gather3 N B C M wf) x idx (ix3 e b a)
      = x (ix3 (⟨min (idx (ix2 e (0 : Fin 1))).toInt.toNat (N - 1), by omega⟩ : Fin N) b a) := by
  unfold Host.gather
  congr 1
  funext ax
  refine Fin.ext ?_
  match ax with
  | ⟨0, _⟩ =>
    show (gather3 N B C M wf).start (ix3 e b a) idx 0 + (gather3 N B C M wf).batchCoord (ix3 e b a) 0
      + (gather3 N B C M wf).offCoord (ix3 e b a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gather3 N B C M wf).startIndexMap from List.mem_singleton.mpr rfl)]
    have hsi : (gather3 N B C M wf).siIdx (ix3 e b a) ⟨List.idxOf (0 : Fin 3) (gather3 N B C M wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (gather3 N B C M wf).start (ix3 e b a) idx 1 + (gather3 N B C M wf).batchCoord (ix3 e b a) 1
      + (gather3 N B C M wf).offCoord (ix3 e b a) 1 = _
    rw [GatherDims.batchCoord_eq_zero _ _ _ List.not_mem_nil]
    unfold GatherDims.start
    rw [dif_neg (show (1 : Fin 3) ∉ (gather3 N B C M wf).startIndexMap from
      fun h => fin3_one_ne_zero (List.mem_singleton.mp h))]
    unfold GatherDims.offCoord
    rw [dif_pos (show (1 : Fin 3) ∈ (gather3 N B C M wf).sKept from (GatherDims.mem_sKept _ _).2
      ⟨fun h => fin3_one_ne_zero (List.mem_singleton.mp h), List.not_mem_nil⟩)]
    simp only [Nat.zero_add, Nat.add_zero]
    rfl
  | ⟨2, _⟩ =>
    show (gather3 N B C M wf).start (ix3 e b a) idx 2 + (gather3 N B C M wf).batchCoord (ix3 e b a) 2
      + (gather3 N B C M wf).offCoord (ix3 e b a) 2 = _
    rw [GatherDims.batchCoord_eq_zero _ _ _ List.not_mem_nil]
    unfold GatherDims.start
    rw [dif_neg (show (2 : Fin 3) ∉ (gather3 N B C M wf).startIndexMap from
      fun h => fin3_two_ne_zero (List.mem_singleton.mp h))]
    unfold GatherDims.offCoord
    rw [dif_pos (show (2 : Fin 3) ∈ (gather3 N B C M wf).sKept from (GatherDims.mem_sKept _ _).2
      ⟨fun h => fin3_two_ne_zero (List.mem_singleton.mp h), List.not_mem_nil⟩)]
    simp only [Nat.zero_add, Nat.add_zero]
    rfl

/-- Accumulating scatter of rows `[M, C]` into a rank-2 table `[N, C]` at a column `[M, 1]` of start indices. -/
abbrev scatter2 (N C M : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- An update lands on index `i` exactly when, on every axis, its start plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `(e, c)` lands on `(n, k)` exactly when its start word, read signed, is `n` and `c = k`:
    axis 0 starts at the word and has window coordinate 0 (it is an inserted axis), axis 1 starts at 0 and
    has window coordinate `c`. -/
theorem scatter2_resultIdx {N C M w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (k : Fin C) :
    (scatter2 N C M wf).resultIdx? (ix2 e c) idx = some (ix2 n k)
      ↔ (idx (ix2 e (0 : Fin 1))).toInt = (n.val : ℤ) ∧ c = k := by
  have hs0 : (scatter2 N C M wf).start (ix2 e c) idx (0 : Fin 2) = (idx (ix2 e (0 : Fin 1))).toInt := by
    unfold ScatterDims.start
    rw [dif_pos (show (0 : Fin 2) ∈ (scatter2 N C M wf).scatterDimsToOperandDims from List.mem_singleton.mpr rfl)]
    have hsi : (scatter2 N C M wf).siIdx (ix2 e c) ⟨List.idxOf (0 : Fin 2) (scatter2 N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter2 N C M wf).window (ix2 e c) (0 : Fin 2) = 0 := by
    unfold ScatterDims.window
    rw [dif_neg (fun h => (mem_kept _ _).1 h (List.mem_singleton.mpr rfl))]
  have hs1 : (scatter2 N C M wf).start (ix2 e c) idx (1 : Fin 2) = 0 := by
    unfold ScatterDims.start
    rw [dif_neg (fun h => fin2_one_ne_zero (List.mem_singleton.mp h))]
  have hw1 : (scatter2 N C M wf).window (ix2 e c) (1 : Fin 2) = c.val := by
    unfold ScatterDims.window
    rw [dif_pos (show (1 : Fin 2) ∈ (scatter2 N C M wf).sKept from
      (mem_kept _ _).2 (fun h => fin2_one_ne_zero (List.mem_singleton.mp h)))]
    rfl
  rw [resultIdx?_eq_some_iff]
  constructor
  · intro h
    have h0 := h (0 : Fin 2)
    have h1 := h (1 : Fin 2)
    rw [hs0, hw0] at h0
    rw [hs1, hw1] at h1
    have h0' : (idx (ix2 e (0 : Fin 1))).toInt + ((0 : ℕ) : ℤ) = (n.val : ℤ) := h0
    have h1' : (0 : ℤ) + (c.val : ℤ) = (k.val : ℤ) := h1
    refine ⟨by simpa using h0', Fin.ext ?_⟩
    have : (c.val : ℤ) = (k.val : ℤ) := by simpa using h1'
    exact_mod_cast this
  · rintro ⟨h0, rfl⟩ a
    match a with
    | ⟨0, _⟩ =>
      show (scatter2 N C M wf).start (ix2 e c) idx (0 : Fin 2)
        + ((scatter2 N C M wf).window (ix2 e c) (0 : Fin 2) : ℤ) = (n.val : ℤ)
      rw [hs0, hw0, h0]; simp
    | ⟨1, _⟩ =>
      show (scatter2 N C M wf).start (ix2 e c) idx (1 : Fin 2)
        + ((scatter2 N C M wf).window (ix2 e c) (1 : Fin 2) : ℤ) = (c.val : ℤ)
      rw [hs1, hw1]; simp

/-- The accumulated table at `(n, k)`: the operand there plus the updates `(e, k)` of the rows `e` whose
    start word, read signed, is `n`. -/
theorem scatterAdd2_apply {N C M w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (k : Fin C) :
    Ideal.hostScatterAdd (scatter2 N C M wf) x idx upd (ix2 n k)
      = x (ix2 n k) + ∑ e : Fin M, if (idx (ix2 e (0 : Fin 1))).toInt = (n.val : ℤ) then upd (ix2 e k) else 0 := by
  unfold Ideal.hostScatterAdd
  congr 1
  rw [Finset.sum_filter, sum_idx2]
  refine Finset.sum_congr rfl fun e _ => ?_
  simp only [scatter2_resultIdx]
  by_cases h : (idx (ix2 e (0 : Fin 1))).toInt = (n.val : ℤ)
  · simp [h]
  · simp [h]

/-- Accumulating scatter of slabs `[M, B, C]` into a rank-3 table `[N, B, C]`. -/
abbrev scatter3 (N B C M : Nat)
    (wf : ScatterDims.WF ⟨3, ![N, B, C]⟩ ⟨2, ![M, 1]⟩ ⟨3, ![M, B, C]⟩ [1, 2] [0] [0] 1) :
    ScatterDims ⟨3, ![N, B, C]⟩ ⟨2, ![M, 1]⟩ ⟨3, ![M, B, C]⟩ where
  updateWindowDims := [1, 2]
  insertedWindowDims := [0]
  scatterDimsToOperandDims := [0]
  indexVectorDim := 1
  wf := wf

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
private theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An update `(e, b', c)` lands on `(n, b, k)` exactly when its start word, read signed, is `n`, `c = k`
    and `b' = b`. -/
theorem scatter3_resultIdx {N B C M w : Nat}
    (wf : ScatterDims.WF ⟨3, ![N, B, C]⟩ ⟨2, ![M, 1]⟩ ⟨3, ![M, B, C]⟩ [1, 2] [0] [0] 1)
    (idx : IVec ⟨2, ![M, 1]⟩ w) (e : Fin M) (b' : Fin B) (c : Fin C) (n : Fin N) (b : Fin B) (k : Fin C) :
    (scatter3 N B C M wf).resultIdx? (ix3 e b' c) idx = some (ix3 n b k)
      ↔ (idx (ix2 e (0 : Fin 1))).toInt = (n.val : ℤ) ∧ c = k ∧ b' = b := by
  have hs0 : (scatter3 N B C M wf).start (ix3 e b' c) idx (0 : Fin 3) = (idx (ix2 e (0 : Fin 1))).toInt := by
    unfold ScatterDims.start
    rw [dif_pos (show (0 : Fin 3) ∈ (scatter3 N B C M wf).scatterDimsToOperandDims from List.mem_singleton.mpr rfl)]
    have hsi : (scatter3 N B C M wf).siIdx (ix3 e b' c) ⟨List.idxOf (0 : Fin 3) (scatter3 N B C M wf).scatterDimsToOperandDims,
        List.idxOf_lt_length_iff.2 (List.mem_singleton.mpr rfl)⟩ = ix2 e (0 : Fin 1) := by
      funext d; refine Fin.ext ?_
      match d with
      | ⟨0, _⟩ => rfl
      | ⟨1, _⟩ => rfl
    rw [hsi]
  have hw0 : (scatter3 N B C M wf).window (ix3 e b' c) (0 : Fin 3) = 0 := by
    unfold ScatterDims.window
    rw [dif_neg (fun h => (mem_kept _ _).1 h (List.mem_singleton.mpr rfl))]
  have hs1 : (scatter3 N B C M wf).start (ix3 e b' c) idx (1 : Fin 3) = 0 := by
    unfold ScatterDims.start
    rw [dif_neg (fun h => fin3_one_ne_zero (List.mem_singleton.mp h))]
  have hw1 : (scatter3 N B C M wf).window (ix3 e b' c) (1 : Fin 3) = b'.val := by
    unfold ScatterDims.window
    rw [dif_pos (show (1 : Fin 3) ∈ (scatter3 N B C M wf).sKept from
      (mem_kept _ _).2 (fun h => fin3_one_ne_zero (List.mem_singleton.mp h)))]
    rfl
  have hs2 : (scatter3 N B C M wf).start (ix3 e b' c) idx (2 : Fin 3) = 0 := by
    unfold ScatterDims.start
    rw [dif_neg (fun h => fin3_two_ne_zero (List.mem_singleton.mp h))]
  have hw2 : (scatter3 N B C M wf).window (ix3 e b' c) (2 : Fin 3) = c.val := by
    unfold ScatterDims.window
    rw [dif_pos (show (2 : Fin 3) ∈ (scatter3 N B C M wf).sKept from
      (mem_kept _ _).2 (fun h => fin3_two_ne_zero (List.mem_singleton.mp h)))]
    rfl
  rw [resultIdx?_eq_some_iff]
  constructor
  · intro h
    have h0 := h (0 : Fin 3)
    have h1 := h (1 : Fin 3)
    have h2 := h (2 : Fin 3)
    rw [hs0, hw0] at h0
    rw [hs1, hw1] at h1
    rw [hs2, hw2] at h2
    have h0' : (idx (ix2 e (0 : Fin 1))).toInt + ((0 : ℕ) : ℤ) = (n.val : ℤ) := h0
    have h1' : (0 : ℤ) + (b'.val : ℤ) = (b.val : ℤ) := h1
    have h2' : (0 : ℤ) + (c.val : ℤ) = (k.val : ℤ) := h2
    refine ⟨by simpa using h0', Fin.ext ?_, Fin.ext ?_⟩
    · have : (c.val : ℤ) = (k.val : ℤ) := by simpa using h2'
      exact_mod_cast this
    · have : (b'.val : ℤ) = (b.val : ℤ) := by simpa using h1'
      exact_mod_cast this
  · rintro ⟨h0, rfl, rfl⟩ a
    match a with
    | ⟨0, _⟩ =>
      show (scatter3 N B C M wf).start (ix3 e b' c) idx (0 : Fin 3)
        + ((scatter3 N B C M wf).window (ix3 e b' c) (0 : Fin 3) : ℤ) = (n.val : ℤ)
      rw [hs0, hw0, h0]; simp
    | ⟨1, _⟩ =>
      show (scatter3 N B C M wf).start (ix3 e b' c) idx (1 : Fin 3)
        + ((scatter3 N B C M wf).window (ix3 e b' c) (1 : Fin 3) : ℤ) = (b'.val : ℤ)
      rw [hs1, hw1]; simp
    | ⟨2, _⟩ =>
      show (scatter3 N B C M wf).start (ix3 e b' c) idx (2 : Fin 3)
        + ((scatter3 N B C M wf).window (ix3 e b' c) (2 : Fin 3) : ℤ) = (c.val : ℤ)
      rw [hs2, hw2]; simp

/-- The accumulated table at `(n, b, k)`. -/
theorem scatterAdd3_apply {N B C M w : Nat}
    (wf : ScatterDims.WF ⟨3, ![N, B, C]⟩ ⟨2, ![M, 1]⟩ ⟨3, ![M, B, C]⟩ [1, 2] [0] [0] 1)
    (x : (⟨3, ![N, B, C]⟩ : Shape).Idx → EReal) (idx : IVec ⟨2, ![M, 1]⟩ w)
    (upd : (⟨3, ![M, B, C]⟩ : Shape).Idx → EReal) (n : Fin N) (b : Fin B) (k : Fin C) :
    Ideal.hostScatterAdd (scatter3 N B C M wf) x idx upd (ix3 n b k)
      = x (ix3 n b k) + ∑ e : Fin M, if (idx (ix2 e (0 : Fin 1))).toInt = (n.val : ℤ) then upd (ix3 e b k) else 0 := by
  unfold Ideal.hostScatterAdd
  congr 1
  rw [Finset.sum_filter, sum_idx3]
  refine Finset.sum_congr rfl fun e _ => ?_
  simp only [scatter3_resultIdx]
  by_cases h : (idx (ix2 e (0 : Fin 1))).toInt = (n.val : ℤ)
  · simp [h, ite_and]
  · simp [h]

end Cert.Rows

end
-- ==== Proof.LibRows1.lean ====
/-
  Accumulating scatter of scalars read at an index.

  A vector `[N]` is accumulated into by a column `[M, 1]` of start indices, one signed word per update
  `[M]`: the dimension numbers are those of `segment_sum` of a rank-1 array. Entry `n` receives the
  updates `e` whose start word, read signed, is `n`.
-/
import Idealize.ShloMosaic.PureOps.Ideal
import Idealize.ShloMosaic.Lib.ValueIdx

noncomputable section

open scoped BigOperators

namespace Cert.Rows

open Idealize.ShloMosaic Idealize.ShloMosaic.ValueIdx

/-- An axis is kept exactly when it is not among the removed ones. -/
private theorem mem_kept1 {s : Shape} (axes : List (Fin s.rank)) (a : Fin s.rank) : a ∈ s.kept axes ↔ a ∉ axes := by
  simp [Shape.kept, List.mem_filter, List.mem_finRange]

/-- Accumulating scatter of scalars `[M]` into a vector `[N]` at a column `[M, 1]` of start indices. -/
abbrev scatter1 (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- An update lands on index `i` exactly when, on every axis, its start plus its window coordinate is
    `i`'s coordinate. -/
private theorem lands_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
private theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- An update `e` lands on `n` exactly when its start word, read signed, is `n`: the one axis starts at
    the word and has window coordinate 0 (it is an inserted axis). -/
theorem scatter1_resultIdx {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (scatter1 N M wf).resultIdx? (ix1 e) idx = some (ix1 n)
      ↔ (idx (ix2 e (0 : Fin 1))).toInt = (n.val : ℤ) := by
  have hs0 : (scatter1 N M wf).start (ix1 e) idx (0 : Fin 1) = (idx (ix2 e (0 : Fin 1))).toInt := by
    unfold ScatterDims.start
    rw [dif_pos (show (0 : Fin 1) ∈ (scatter1 N M wf).scatterDimsToOperandDims from List.mem_singleton.mpr rfl)]
    have hsi : (scatter1 N M wf).siIdx (ix1 e) ⟨List.idxOf (0 : Fin 1) (scatter1 N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter1 N M wf).window (ix1 e) (0 : Fin 1) = 0 := by
    unfold ScatterDims.window
    rw [dif_neg (fun h => (mem_kept1 _ _).1 h (List.mem_singleton.mpr rfl))]
  rw [lands_iff]
  constructor
  · intro h
    have h0 := h (0 : Fin 1)
    rw [hs0, hw0] at h0
    have h0' : (idx (ix2 e (0 : Fin 1))).toInt + ((0 : ℕ) : ℤ) = (n.val : ℤ) := h0
    simpa using h0'
  · intro h0 a
    match a with
    | ⟨0, _⟩ =>
      show (scatter1 N M wf).start (ix1 e) idx (0 : Fin 1)
        + ((scatter1 N M wf).window (ix1 e) (0 : Fin 1) : ℤ) = (n.val : ℤ)
      rw [hs0, hw0, h0]; simp

/-- The accumulated vector at `n`: the operand there plus the updates `e` whose start word, read signed,
    is `n`. -/
theorem scatterAdd1_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (scatter1 N M wf) x idx upd (ix1 n)
      = x (ix1 n) + ∑ e : Fin M, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  simp only [scatter1_resultIdx]

end Cert.Rows

end
-- ==== Proof.StageLemmas.lean ====
/-
  The host's irregular stages as the specification's functions.

  A gather of whole rows at a column of start words is `rows`; an accumulating scatter of rows into a
  zero table is `seg`; an accumulating scatter of ones into a zero vector is `cnt`. The word `1.0` is
  the real number one.
-/
import proofs.«167313_j82454782148695_2_alg».proof.Proof.Spec
import proofs.«167313_j82454782148695_2_alg».proof.Proof.LibRows
import proofs.«167313_j82454782148695_2_alg».proof.Proof.LibRows1

noncomputable section

open scoped BigOperators

namespace Cert.Gnn

open Idealize.ShloMosaic Idealize.ShloMosaic.ValueIdx Cert.Rows

/-- The f32 pattern of `1.0` denotes the real one. -/
theorem ofBits_one : Ideal.ofBits .f32 0x3F800000#32 = (1 : EReal) := by
  simp [Ideal.ofBits, Ideal.ieee]
  first
    | (norm_cast; norm_num; done)
    | (rw [← EReal.coe_mul]; norm_num; done)

/-- A gather of whole rows is `rows`. -/
theorem gather_rows {N C M : Nat} (hN : 0 < N)
    (wf : GatherDims.WF ⟨2, ![N, C]⟩ ⟨2, ![M, 1]⟩ ⟨2, ![M, C]⟩ [1] [0] [] [0] [] 1 ![1, C])
    (x : Mat N C) (idx : Col M) :
    Host.gather (gather2 N C M wf) x idx = rows hN idx x := by
  funext i
  obtain ⟨e, a, rfl⟩ : ∃ (e : Fin M) (a : Fin C), i = ix2 e a := ⟨i 0, i 1, eq_ix2 i⟩
  exact gather2_apply hN wf x idx e a

/-- An accumulating scatter of rows into a zero table is `seg`. -/
theorem scatter_seg {N C M : Nat}
    (wf : ScatterDims.WF ⟨2, ![N, C]⟩ ⟨2, ![M, 1]⟩ ⟨2, ![M, C]⟩ [1] [0] [0] 1)
    (z : Mat N C) (hz : ∀ i, z i = 0) (idx : Col M) (u : Mat M C) :
    Ideal.hostScatterAdd (scatter2 N C M wf) z idx u = seg idx u := by
  funext i
  obtain ⟨n, k, rfl⟩ : ∃ (n : Fin N) (k : Fin C), i = ix2 n k := ⟨i 0, i 1, eq_ix2 i⟩
  rw [scatterAdd2_apply, hz]
  rfl

/-- An accumulating scatter of ones into a zero vector is `cnt`. -/
theorem scatter_cnt {N M : Nat}
    (wf : ScatterDims.WF ⟨1, ![N]⟩ ⟨2, ![M, 1]⟩ ⟨1, ![M]⟩ [] [0] [0] 1)
    (z : Row N) (hz : ∀ i, z i = 0) (idx : Col M) (o : Row M) (ho : ∀ i, o i = 1) (n : Fin N) :
    Ideal.hostScatterAdd (scatter1 N M wf) z idx o (ix1 n) = cnt idx n := by
  rw [scatterAdd1_apply, hz]
  simp only [ho]
  rfl

end Cert.Gnn

end
-- ==== Proof.CountStage.lean ====
/-
  The count of arriving edges and its reciprocal, as the host computes them.

  The host accumulates a vector of ones into a vector of zeros at the destination words; entry `n` of the
  result is the number of edges whose destination word is `n` (`cnt`). The reciprocal column divides one
  by that number, entry by entry (`invCol`). Every statement here is over arbitrary numbers of nodes and
  edges: no particular size enters the argument.
-/
import proofs.«167313_j82454782148695_2_alg».proof.Proof.StageLemmas
import proofs.«167313_j82454782148695_2_alg».proof.Proof.SpecRows

noncomputable section

open scoped BigOperators

namespace Cert.Gnn

open Idealize.ShloMosaic Idealize.ShloMosaic.ValueIdx Cert.Rows

/-- The host's accumulating scatter of ones into zeros, read at node `n`, is the count at `n`. -/
theorem host_scatter_cnt {N M : Nat}
    (wf : ScatterDims.WF ⟨1, ![N]⟩ ⟨2, ![M, 1]⟩ ⟨1, ![M]⟩ [] [0] [0] 1)
    (z : FVec Ideal ⟨1, ![N]⟩ .f32) (hz : ∀ i, z i = (0 : EReal)) (idx : Col M)
    (o : FVec Ideal ⟨1, ![M]⟩ .f32) (ho : ∀ i, o i = (1 : EReal)) (n : Fin N) :
    Host.scatterAdd (F := Ideal) (scatter1 N M wf) z idx o (ix1 n) = cnt idx n :=
  scatter_cnt wf z hz idx o ho n

/-- The host's quotient of two float tensors, read at an index, is the quotient of the entries. -/
theorem hostDivf_apply {s : Shape} (a b : FVec Ideal s .f32) (i : s.Idx) :
    Host.divf (F := Ideal) a b i = Ideal.div (a i) (b i) := rfl

/-- The reciprocal-count column at node `n`. -/
theorem invCol_apply {N M : Nat} (dst : Col M) (n : Fin N) (u : Fin 1) :
    invCol (N := N) dst (ix2 n u) = Ideal.div 1 (cnt (N := N) dst n) := rfl

/-- Dividing by the count at node `n`. -/
theorem divCnt_apply {N C M : Nat} (dst : Col M) (x : Mat N C) (n : Fin N) (k : Fin C) :
    divCnt dst x (ix2 n k) = Ideal.div (x (ix2 n k)) (cnt (N := N) dst n) := rfl

end Cert.Gnn

end
-- ==== Proof.KernelHost.lean ====
/-
  The kernels' side of the claim: the result array is the specification's `netKer` of the arguments.

  The host program computes, before the first kernel, the two columns of node numbers (the same integer
  operations of the edge list as the reference's: its stages `val_main_v16` and `val_main_v19`), the
  reciprocal counts and the aggregated node table; the first kernel turns these into `stage1` of them;
  the host aggregates that along the edges; the second kernel turns the aggregate and the reciprocal
  counts into `stage2` of them, which is the result. A gather of whole rows is `rows`, an accumulating
  scatter into zeros is `seg` or `cnt`, the changes of float format are the identity.
-/
import proofs.«167313_j82454782148695_2_alg».proof.Proof.Gen.KernelIdeal.Frame
import proofs.«167313_j82454782148695_2_alg».proof.Proof.Gen.ReferenceIdeal.Read
import proofs.«167313_j82454782148695_2_alg».proof.Proof.Region0
import proofs.«167313_j82454782148695_2_alg».proof.Proof.Region1
import proofs.«167313_j82454782148695_2_alg».proof.Proof.StageLemmas
import proofs.«167313_j82454782148695_2_alg».proof.Proof.SpecRows
import proofs.«167313_j82454782148695_2_alg».proof.Proof.CountStage
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen Cert.Gnn
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The column of source words: the reference's stage of the same edge list. -/
abbrev srcC (c : Dev nD) : Col 1700000 :=
  Cert.ReferenceIdeal.Read.val_main_v16 (F := Ideal) (m ((c : Thread nD τ).loc main_arg1))
/-- The column of destination words: the reference's stage of the same edge list. -/
abbrev dstC (c : Dev nD) : Col 1700000 :=
  Cert.ReferenceIdeal.Read.val_main_v19 (F := Ideal) (m ((c : Thread nD τ).loc main_arg1))

/-- The zero splat is zero at every index. -/
theorem zero_splat {s : Shape} (h : (⟨0, ![]⟩ : Shape).BroadcastsInDim s (![] : Fin 0 → Fin s.rank)) (i : s.Idx) :
    broadcastInDim s ![] h (constant (F := Ideal) ⟨0, ![]⟩ .f32 0x00000000#32) i = (0 : EReal) :=
  (broadcastInDim_apply _ h _ i (fun a => a.elim0) (fun a => a.elim0)).trans Ideal.ofBits_zero_f32
/-- The splat of `1.0` is one at every index. -/
theorem one_splat {s : Shape} (h : (⟨0, ![]⟩ : Shape).BroadcastsInDim s (![] : Fin 0 → Fin s.rank)) (i : s.Idx) :
    broadcastInDim s ![] h (constant (F := Ideal) ⟨0, ![]⟩ .f32 0x3F800000#32) i = (1 : EReal) :=
  (broadcastInDim_apply _ h _ i (fun a => a.elim0) (fun a => a.elim0)).trans ofBits_one

/-! ## The host's irregular stages over any operands -/

/-- The printed dimension numbers are the row-table ones. -/
theorem scatter2_rec : scatter_S100000x128_S1700000x1_S1700000x128_1_0_0_1
    = Cert.Rows.scatter2 100000 128 1700000 scatter_S100000x128_S1700000x1_S1700000x128_1_0_0_1_wf := rfl
theorem gather2_rec : gather_S100000x128_S1700000x1_S1700000x128_1_0_n_n_0_1_1128
    = Cert.Rows.gather2 100000 128 1700000 gather_S100000x128_S1700000x1_S1700000x128_1_0_n_n_0_1_1128_wf := rfl
theorem scatter1_rec : scatter_S100000_S1700000x1_S1700000_n_0_0_1
    = Cert.Rows.scatter1 100000 1700000 scatter_S100000_S1700000x1_S1700000_n_0_0_1_wf := rfl

/-- Rows gathered at the source words and accumulated at the destination words into zeros: `seg` of `rows`. -/
theorem seg_of (Z : FVec Ideal S100000x128 .f32) (hZ : ∀ i, Z i = (0 : EReal)) (d s : Col 1700000)
    (x : FVec Ideal S100000x128 .f32) :
    Host.scatterAdd (F := Ideal) scatter_S100000x128_S1700000x1_S1700000x128_1_0_0_1 Z d
        (Host.gather gather_S100000x128_S1700000x1_S1700000x128_1_0_n_n_0_1_1128 x s)
      = seg d (rows (by decide) s x) := by
  rw [scatter2_rec, gather2_rec]
  show Ideal.hostScatterAdd _ Z d (Host.gather _ x s) = _
  rw [gather_rows (by decide), scatter_seg _ _ hZ]

/-- The same with the gathered rows' float format widened, which changes nothing. -/
theorem seg_of_widened (Z : FVec Ideal S100000x128 .f32) (hZ : ∀ i, Z i = (0 : EReal)) (d s : Col 1700000)
    (x : FVec Ideal S100000x128 .bf16) :
    Host.scatterAdd (F := Ideal) scatter_S100000x128_S1700000x1_S1700000x128_1_0_0_1 Z d
        (extf .f32 (Host.gather gather_S100000x128_S1700000x1_S1700000x128_1_0_n_n_0_1_1128 x s) bitsLt_bf16_f32)
      = seg d (rows (by decide) s x) :=
  seg_of Z hZ d s x

/-- The accumulated ones, read through the added unit axis, are the count. -/
theorem cnt_of (d : Col 1700000) (n : Fin 100000) (u : Fin 1) :
    shapeCast S100000x1
        (Host.scatterAdd (F := Ideal) scatter_S100000_S1700000x1_S1700000_n_0_0_1
          (broadcastInDim S100000 ![] bcast_S_S100000 (constant (F := Ideal) S_ .f32 0x00000000#32)) d
          (broadcastInDim S1700000 ![] bcast_S_S1700000 (constant (F := Ideal) S_ .f32 0x3F800000#32)))
        shapeCasts_S100000_S100000x1 (ix2 n u)
      = cnt (N := 100000) d n := by
  have hu : u.val = 0 := by omega
  rw [shapeCast_apply _ shapeCasts_S100000_S100000x1 (ix2 n u) (ix1 n) (by
      rw [Shape.rowMajor_val_two, Shape.rowMajor_val_one]
      show n.val = n.val * 1 + u.val
      omega), scatter1_rec]
  rw [host_scatter_cnt scatter_S100000_S1700000x1_S1700000_n_0_0_1_wf _ (fun i => zero_splat bcast_S_S100000 i) d _
    (fun i => one_splat bcast_S_S1700000 i) n]

/-- One over the accumulated ones, as a column: the reciprocal counts. -/
theorem inv_of (d : Col 1700000) :
    Host.divf (F := Ideal) (broadcastInDim S100000x1 ![] bcast_S_S100000x1 (constant (F := Ideal) S_ .f32 0x3F800000#32))
        (shapeCast S100000x1
          (Host.scatterAdd (F := Ideal) scatter_S100000_S1700000x1_S1700000_n_0_0_1
            (broadcastInDim S100000 ![] bcast_S_S100000 (constant (F := Ideal) S_ .f32 0x00000000#32)) d
            (broadcastInDim S1700000 ![] bcast_S_S1700000 (constant (F := Ideal) S_ .f32 0x3F800000#32)))
          shapeCasts_S100000_S100000x1)
      = invCol d := by
  funext i
  obtain ⟨n, u, rfl⟩ : ∃ (n : Fin 100000) (u : Fin 1), i = ix2 n u := ⟨i 0, i 1, eq_ix2 i⟩
  rw [hostDivf_apply, one_splat, cnt_of d n u, invCol_apply]

/-! ## What the first kernel is entered with -/

/-- The aggregated node table. -/
theorem entry0_rows (c : Dev nD) :
    (V1 m ρ c main_v23 : S100000x128.Idx → Elt Ideal .f32)
      = seg (dstC m c) (rows (by decide) (srcC m c) (m ((c : Thread nD τ).loc main_arg0))) := by
  have e : (V1 m ρ c main_v23 : S100000x128.Idx → Elt Ideal .f32)
      = Host.scatterAdd (F := Ideal) scatter_S100000x128_S1700000x1_S1700000x128_1_0_0_1
          (broadcastInDim S100000x128 ![] bcast_S_S100000x128 (constant (F := Ideal) S_ .f32 0x00000000#32)) (dstC m c)
          (Host.gather gather_S100000x128_S1700000x1_S1700000x128_1_0_n_n_0_1_1128
            (m ((c : Thread nD τ).loc main_arg0)) (srcC m c)) := by
    show StableHlo.after hostOps0 (W0 m ρ c) (Proc.devRef .tc main_v23) = _
    after_results_simp <;> rfl
  rw [e]
  exact seg_of _ (fun i => zero_splat _ i) _ _ _

/-- The reciprocal counts. -/
theorem entry0_inv (c : Dev nD) :
    (V1 m ρ c main_v13 : S100000x1.Idx → Elt Ideal .f32) = invCol (dstC m c) := by
  have e : (V1 m ρ c main_v13 : S100000x1.Idx → Elt Ideal .f32)
      = Host.divf (F := Ideal) (broadcastInDim S100000x1 ![] bcast_S_S100000x1 (constant (F := Ideal) S_ .f32 0x3F800000#32))
        (shapeCast S100000x1
          (Host.scatterAdd (F := Ideal) scatter_S100000_S1700000x1_S1700000_n_0_0_1
            (broadcastInDim S100000 ![] bcast_S_S100000 (constant (F := Ideal) S_ .f32 0x00000000#32)) (dstC m c)
            (broadcastInDim S1700000 ![] bcast_S_S1700000 (constant (F := Ideal) S_ .f32 0x3F800000#32)))
          shapeCasts_S100000_S100000x1) := by
    show StableHlo.after hostOps0 (W0 m ρ c) (Proc.devRef .tc main_v13) = _
    after_results_simp <;> rfl
  rw [e]
  exact inv_of _

/-- The first layer's weights, their format changed. -/
theorem entry0_W1 (c : Dev nD) :
    (V1 m ρ c main_v24 : S128x128.Idx → Elt Ideal .bf16) = m ((c : Thread nD τ).loc main_arg2) := by
  show StableHlo.after hostOps0 (W0 m ρ c) (Proc.devRef .tc main_v24) = _
  after_results <;> rfl
/-- The second layer's weights, their format changed. -/
theorem entry0_W2 (c : Dev nD) :
    (V1 m ρ c main_v25 : S128x128.Idx → Elt Ideal .bf16) = m ((c : Thread nD τ).loc main_arg8) := by
  show StableHlo.after hostOps0 (W0 m ρ c) (Proc.devRef .tc main_v25) = _
  after_results <;> rfl
theorem entry0_arg3 (c : Dev nD) : V1 m ρ c main_arg3 = m ((c : Thread nD τ).loc main_arg3) := by
  show StableHlo.after hostOps0 (W0 m ρ c) (Proc.devRef .tc main_arg3) = _
  after_results <;> rfl
theorem entry0_arg4 (c : Dev nD) : V1 m ρ c main_arg4 = m ((c : Thread nD τ).loc main_arg4) := by
  show StableHlo.after hostOps0 (W0 m ρ c) (Proc.devRef .tc main_arg4) = _
  after_results <;> rfl
theorem entry0_arg5 (c : Dev nD) : V1 m ρ c main_arg5 = m ((c : Thread nD τ).loc main_arg5) := by
  show StableHlo.after hostOps0 (W0 m ρ c) (Proc.devRef .tc main_arg5) = _
  after_results <;> rfl
theorem entry0_arg6 (c : Dev nD) : V1 m ρ c main_arg6 = m ((c : Thread nD τ).loc main_arg6) := by
  show StableHlo.after hostOps0 (W0 m ρ c) (Proc.devRef .tc main_arg6) = _
  after_results <;> rfl
theorem entry0_arg7 (c : Dev nD) : V1 m ρ c main_arg7 = m ((c : Thread nD τ).loc main_arg7) := by
  show StableHlo.after hostOps0 (W0 m ρ c) (Proc.devRef .tc main_arg7) = _
  after_results <;> rfl
theorem entry0_arg9 (c : Dev nD) : V1 m ρ c main_arg9 = m ((c : Thread nD τ).loc main_arg9) := by
  show StableHlo.after hostOps0 (W0 m ρ c) (Proc.devRef .tc main_arg9) = _
  after_results <;> rfl

/-- What the first kernel leaves: `stage1` of the aggregated node table and the reciprocal counts. -/
theorem result0 (c : Dev nD) :
    Region0.result (V1 m ρ) c
      = stage1 (seg (dstC m c) (rows (by decide) (srcC m c) (m ((c : Thread nD τ).loc main_arg0)))) (invCol (dstC m c))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  unfold Region0.result
  rw [entry0_rows, entry0_inv, entry0_W1, entry0_W2, entry0_arg3, entry0_arg4, entry0_arg5, entry0_arg6, entry0_arg7,
    entry0_arg9]

/-! ## Between the kernels: what the first kernel's exit holds -/

/-- The first kernel's result array. -/
theorem mid_result (c : Dev nD) : W2 m ρ c (Proc.devRef .tc main_v26) = Region0.result (V1 m ρ) c :=
  (W2_arr m ρ c 10).trans (Region0.final (V1 m ρ) c)
/-- The reciprocal counts pass through the first kernel, which only reads them. -/
theorem mid_inv (c : Dev nD) : W2 m ρ c (Proc.devRef .tc main_v13) = V1 m ρ c main_v13 :=
  (W2_arr m ρ c 1).trans (((dat0 (V1 m ρ) c).arrAt_in 1 rfl _).trans (A_eq0 (V1 m ρ) c 1))
/-- The concatenated source words, as the reference's stage. -/
theorem mid_src (c : Dev nD) : W2 m ρ c (Proc.devRef .tc main_v5)
    = Cert.ReferenceIdeal.Read.val_main_v3 (F := Ideal) (m ((c : Thread nD τ).loc main_arg1)) :=
  (W2_of_ne m ρ c main_v5 (by decide)).trans (by
    show StableHlo.after hostOps0 (W0 m ρ c) (Proc.devRef .tc main_v5) = _
    after_results <;> rfl)
/-- The concatenated destination words, as the reference's stage. -/
theorem mid_dst (c : Dev nD) : W2 m ρ c (Proc.devRef .tc main_v6)
    = Cert.ReferenceIdeal.Read.val_main_v6 (F := Ideal) (m ((c : Thread nD τ).loc main_arg1)) :=
  (W2_of_ne m ρ c main_v6 (by decide)).trans (by
    show StableHlo.after hostOps0 (W0 m ρ c) (Proc.devRef .tc main_v6) = _
    after_results <;> rfl)
theorem mid_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results <;> rfl)
theorem mid_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results <;> rfl)
theorem mid_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results <;> rfl)
theorem mid_arg13 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results <;> rfl)
theorem mid_arg14 (c : Dev nD) : W2 m ρ c (Proc.devRef .tc main_arg14) = m ((c : Thread nD τ).loc main_arg14) :=
  (W2_of_ne m ρ c main_arg14 (by decide)).trans (by
    show StableHlo.after hostOps0 (W0 m ρ c) (Proc.devRef .tc main_arg14) = _
    after_results <;> rfl)
theorem mid_arg15 (c : Dev nD) : W2 m ρ c (Proc.devRef .tc main_arg15) = m ((c : Thread nD τ).loc main_arg15) :=
  (W2_of_ne m ρ c main_arg15 (by decide)).trans (by
    show StableHlo.after hostOps0 (W0 m ρ c) (Proc.devRef .tc main_arg15) = _
    after_results <;> rfl)
theorem mid_arg16 (c : Dev nD) : W2 m ρ c (Proc.devRef .tc main_arg16) = m ((c : Thread nD τ).loc main_arg16) :=
  (W2_of_ne m ρ c main_arg16 (by decide)).trans (by
    show StableHlo.after hostOps0 (W0 m ρ c) (Proc.devRef .tc main_arg16) = _
    after_results <;> rfl)
theorem mid_arg17 (c : Dev nD) : W2 m ρ c (Proc.devRef .tc main_arg17) = m ((c : Thread nD τ).loc main_arg17) :=
  (W2_of_ne m ρ c main_arg17 (by decide)).trans (by
    show StableHlo.after hostOps0 (W0 m ρ c) (Proc.devRef .tc main_arg17) = _
    after_results <;> rfl)

/-! ## What the second kernel is entered with -/

/-- The aggregated second-layer rows. -/
theorem entry1_rows (c : Dev nD) :
    (V3 m ρ c main_v37 : S100000x128.Idx → Elt Ideal .f32)
      = seg (dstC m c) (rows (by decide) (srcC m c) (Region0.result (V1 m ρ) c)) := by
  have e : (V3 m ρ c main_v37 : S100000x128.Idx → Elt Ideal .f32)
      = Host.scatterAdd (F := Ideal) scatter_S100000x128_S1700000x1_S1700000x128_1_0_0_1
          (broadcastInDim S100000x128 ![] bcast_S_S100000x128 (constant (F := Ideal) S_ .f32 0x00000000#32))
          (broadcastInDim S1700000x1 ![0] bcast_S1700000_S1700000x1_0 (W2 m ρ c (Proc.devRef .tc main_v6)))
          (extf .f32
            (Host.gather gather_S100000x128_S1700000x1_S1700000x128_1_0_n_n_0_1_1128 (W2 m ρ c (Proc.devRef .tc main_v26))
              (broadcastInDim S1700000x1 ![0] bcast_S1700000_S1700000x1_0
                (select
                  (cmpi .slt (W2 m ρ c (Proc.devRef .tc main_v5))
                    (broadcastInDim S1700000 ![] bcast_S_S1700000 (constantI S_ 32 0#32)))
                  (addi (W2 m ρ c (Proc.devRef .tc main_v5))
                    (broadcastInDim S1700000 ![] bcast_S_S1700000 (constantI S_ 32 100000#32)))
                  (W2 m ρ c (Proc.devRef .tc main_v5)))))
            bitsLt_bf16_f32) := by
    show StableHlo.after hostOps1 (W2 m ρ c) (Proc.devRef .tc main_v37) = _
    after_results_simp <;> rfl
  rw [e, mid_result, mid_src, mid_dst]
  exact seg_of_widened _ (fun i => zero_splat _ i) (dstC m c) (srcC m c) (Region0.result (V1 m ρ) c)

/-- The reciprocal counts again. -/
theorem entry1_inv (c : Dev nD) :
    (V3 m ρ c main_v13 : S100000x1.Idx → Elt Ideal .f32) = invCol (dstC m c) := by
  show StableHlo.after hostOps1 (W2 m ρ c) (Proc.devRef .tc main_v13) = _
  after_results
  rw [mid_inv, entry0_inv]
/-- The classifier's weights, their format changed. -/
theorem entry1_Wc1 (c : Dev nD) :
    (V3 m ρ c main_v38 : S128x64.Idx → Elt Ideal .bf16) = m ((c : Thread nD τ).loc main_arg14) := by
  show StableHlo.after hostOps1 (W2 m ρ c) (Proc.devRef .tc main_v38) = _
  after_results
  rw [mid_arg14]
  rfl
theorem entry1_Wc2 (c : Dev nD) :
    (V3 m ρ c main_v39 : S64x2.Idx → Elt Ideal .bf16) = m ((c : Thread nD τ).loc main_arg16) := by
  show StableHlo.after hostOps1 (W2 m ρ c) (Proc.devRef .tc main_v39) = _
  after_results
  rw [mid_arg16]
  rfl
theorem entry1_arg10 (c : Dev nD) : V3 m ρ c main_arg10 = m ((c : Thread nD τ).loc main_arg10) := by
  show StableHlo.after hostOps1 (W2 m ρ c) (Proc.devRef .tc main_arg10) = _
  after_results
  exact mid_arg10 m ρ c
theorem entry1_arg11 (c : Dev nD) : V3 m ρ c main_arg11 = m ((c : Thread nD τ).loc main_arg11) := by
  show StableHlo.after hostOps1 (W2 m ρ c) (Proc.devRef .tc main_arg11) = _
  after_results
  exact mid_arg11 m ρ c
theorem entry1_arg12 (c : Dev nD) : V3 m ρ c main_arg12 = m ((c : Thread nD τ).loc main_arg12) := by
  show StableHlo.after hostOps1 (W2 m ρ c) (Proc.devRef .tc main_arg12) = _
  after_results
  exact mid_arg12 m ρ c
theorem entry1_arg13 (c : Dev nD) : V3 m ρ c main_arg13 = m ((c : Thread nD τ).loc main_arg13) := by
  show StableHlo.after hostOps1 (W2 m ρ c) (Proc.devRef .tc main_arg13) = _
  after_results
  exact mid_arg13 m ρ c
theorem entry1_arg15 (c : Dev nD) : V3 m ρ c main_arg15 = m ((c : Thread nD τ).loc main_arg15) := by
  show StableHlo.after hostOps1 (W2 m ρ c) (Proc.devRef .tc main_arg15) = _
  after_results
  exact mid_arg15 m ρ c
theorem entry1_arg17 (c : Dev nD) : V3 m ρ c main_arg17 = m ((c : Thread nD τ).loc main_arg17) := by
  show StableHlo.after hostOps1 (W2 m ρ c) (Proc.devRef .tc main_arg17) = _
  after_results
  exact mid_arg17 m ρ c

/-! ## The result -/

/-- The result array at the last boundary is the kernels' form of the network of the arguments. -/
theorem result_eq (c : Dev nD) :
    W4 m ρ c (Proc.devRef .tc main_v40)
      = netKer (N := 100000) (by decide) (srcC m c) (dstC m c) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W4_arr m ρ c 10).trans ((Region1.final (V3 m ρ) c).trans ?_)
  unfold Region1.result
  rw [entry1_rows, entry1_inv, entry1_Wc1, entry1_Wc2, entry1_arg10, entry1_arg11, entry1_arg12, entry1_arg13,
    entry1_arg15, entry1_arg17, result0]
  exact (netKer_eq_stages _ _ _ _ _ _ _ _ _ _ _ _ _ _ _ _ _ _ _ _).symm

end Cert.KernelIdeal.HostValue

end
-- ==== Proof.RefStages.lean ====
/-
  The reference program's result as the specification's function.

  The generated stage functions give the reference one operation at a time. Grouped, the operations are the
  specification's stages over whole arrays: a matrix product plus a row broadcast down the rows is the affine map
  `lin`; the gather of rows at the column of source words is `rows`; the accumulating scatter into a zero table at the
  column of destination words is `seg`, and of ones into a zero vector `cnt`; the division by the twice-broadcast count
  is `divCnt`; subtract, multiply by the reciprocal root, multiply, add, maximum with zero is `bnRelu`; a maximum with
  the zero splat is `relu`. Each group is proved once over an arbitrary input array and the groups are chained.
-/
import proofs.«167313_j82454782148695_2_alg».proof.Proof.Gen.ReferenceIdeal.Read
import proofs.«167313_j82454782148695_2_alg».proof.Proof.Spec
import proofs.«167313_j82454782148695_2_alg».proof.Proof.StageLemmas
import proofs.«167313_j82454782148695_2_alg».proof.Proof.CountStage
import Idealize.ShloMosaic.PureOps.Ideal.Laws
import Idealize.ShloMosaic.Lib.ValueIdx
import Idealize.ShloMosaic.Lib.Pipeline.Value

noncomputable section

open scoped BigOperators

namespace Cert.ReferenceIdeal.Stages

open Cert.ReferenceIdeal Cert.ReferenceIdeal.Gen Cert.ReferenceIdeal.Read Cert.Gnn
open Idealize.ShloMosaic Idealize.ShloMosaic.ValueIdx

/-! ## A row laid along every row of a table -/

/-- A vector broadcast to one row and then down the 100000 rows, read at `(r, j)`, is the vector at `j`. -/
theorem rowB128 (b : Row 128) (i : S100000x128.Idx) : val_main_v9 (F := Ideal) b i = b (ix1 (i 1)) := by
  rw [val_main_v9_apply, val_main_v8_apply]
  exact congrArg b (funext fun a => Fin.ext (by match a with | ⟨0, _⟩ => rfl))

/-! ## The affine stages -/

/-- The product with a `[128, 128]` matrix plus the broadcast bias is `lin`, over any input table. -/
theorem lin_v10 (Y : Mat 100000 128) (W : Mat 128 128) (b : Row 128) :
    val_main_v10 (F := Ideal) Y W b = lin W b Y := by
  funext i
  rw [val_main_v10_apply, val_main_v7_apply, rowB128]
  have hl : ∀ k : Fin 128, lidx_main_v7 i k = ix2 (i 0) k := fun k =>
    funext fun a => Fin.ext (by match a with | ⟨0, _⟩ => rfl | ⟨1, _⟩ => rfl)
  have hr : ∀ k : Fin 128, ridx_main_v7 i k = ix2 k (i 1) := fun k =>
    funext fun a => Fin.ext (by match a with | ⟨0, _⟩ => rfl | ⟨1, _⟩ => rfl)
  simp only [hl, hr]
  rfl

/-! ## The arguments -/

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 x6 x7 : (⟨S128, .f32⟩ : BufTy).Contents (Elt Ideal))
  (x8 : (⟨S128x128, .f32⟩ : BufTy).Contents (Elt Ideal)) (x9 x10 x11 x12 x13 : (⟨S128, .f32⟩ : BufTy).Contents (Elt Ideal))
  (x14 : (⟨S128x64, .f32⟩ : BufTy).Contents (Elt Ideal)) (x15 : (⟨S64, .f32⟩ : BufTy).Contents (Elt Ideal))
  (x16 : (⟨S64x2, .f32⟩ : BufTy).Contents (Elt Ideal)) (x17 : (⟨S2, .f32⟩ : BufTy).Contents (Elt Ideal))

/-- The second layer's affine stage is the first layer's operations applied to the first layer's output. -/
theorem v47_eq :
    val_main_v47 (F := Ideal) x0 x1 x2 x3 x4 x5 x6 x7 x8 x9
      = val_main_v10 (F := Ideal) (val_main_v43 (F := Ideal) x0 x1 x2 x3 x4 x5 x6 x7) x8 x9 := rfl

/-- The classifier's first affine stage, `[128, 64]`. -/
theorem lin_v84 :
    val_main_v84 (F := Ideal) x0 x1 x2 x3 x4 x5 x6 x7 x8 x9 x10 x11 x12 x13 x14 x15
      = lin x14 x15 (val_main_v80 (F := Ideal) x0 x1 x2 x3 x4 x5 x6 x7 x8 x9 x10 x11 x12 x13) := by
  funext i
  rw [val_main_v84_apply, val_main_v81_apply, val_main_v83_apply, val_main_v82_apply]
  generalize val_main_v80 (F := Ideal) x0 x1 x2 x3 x4 x5 x6 x7 x8 x9 x10 x11 x12 x13 = Y
  have hb : idx_main_v82 (idx_main_v83 i) = ix1 (i 1) :=
    funext fun a => Fin.ext (by match a with | ⟨0, _⟩ => rfl)
  have hl : ∀ k : Fin 128, lidx_main_v81 i k = ix2 (i 0) k := fun k =>
    funext fun a => Fin.ext (by match a with | ⟨0, _⟩ => rfl | ⟨1, _⟩ => rfl)
  have hr : ∀ k : Fin 128, ridx_main_v81 i k = ix2 k (i 1) := fun k =>
    funext fun a => Fin.ext (by match a with | ⟨0, _⟩ => rfl | ⟨1, _⟩ => rfl)
  simp only [hb, hl, hr]
  rfl

/-- The classifier's second affine stage, `[64, 2]`. -/
theorem lin_v89 :
    val_main_v89 (F := Ideal) x0 x1 x2 x3 x4 x5 x6 x7 x8 x9 x10 x11 x12 x13 x14 x15 x16 x17
      = lin x16 x17 (val_main_v85 (F := Ideal) x0 x1 x2 x3 x4 x5 x6 x7 x8 x9 x10 x11 x12 x13 x14 x15) := by
  funext i
  rw [val_main_v89_apply, val_main_v86_apply, val_main_v88_apply, val_main_v87_apply]
  generalize val_main_v85 (F := Ideal) x0 x1 x2 x3 x4 x5 x6 x7 x8 x9 x10 x11 x12 x13 x14 x15 = Y
  have hb : idx_main_v87 (idx_main_v88 i) = ix1 (i 1) :=
    funext fun a => Fin.ext (by match a with | ⟨0, _⟩ => rfl)
  have hl : ∀ k : Fin 64, lidx_main_v86 i k = ix2 (i 0) k := fun k =>
    funext fun a => Fin.ext (by match a with | ⟨0, _⟩ => rfl | ⟨1, _⟩ => rfl)
  have hr : ∀ k : Fin 64, ridx_main_v86 i k = ix2 k (i 1) := fun k =>
    funext fun a => Fin.ext (by match a with | ⟨0, _⟩ => rfl | ⟨1, _⟩ => rfl)
  simp only [hb, hl, hr]
  rfl

/-- The positive part before the last affine stage. -/
theorem v85_eq :
    val_main_v85 (F := Ideal) x0 x1 x2 x3 x4 x5 x6 x7 x8 x9 x10 x11 x12 x13 x14 x15
      = relu zeroWord (val_main_v84 (F := Ideal) x0 x1 x2 x3 x4 x5 x6 x7 x8 x9 x10 x11 x12 x13 x14 x15) := by
  funext i
  rw [val_main_v85_apply, val_main_call2_v0_apply, val_main_call2_cst_apply]
  rfl

/-! ## Normalisation and positive part -/

/-- Subtract the broadcast mean, multiply by the broadcast reciprocal root of variance plus `ε`, multiply by the
    broadcast scale, add the broadcast shift, take the maximum with the zero splat: the program's spelling, over any
    input table. -/
def bnStage (Y : (⟨S100000x128, .f32⟩ : BufTy).Contents (Elt Ideal)) (g be mu v : (⟨S128, .f32⟩ : BufTy).Contents (Elt Ideal)) :
    (⟨S100000x128, .f32⟩ : BufTy).Contents (Elt Ideal) :=
  maximumf (F := Ideal) (s := S100000x128) (φ := .f32)
    (addf (F := Ideal) (s := S100000x128) (φ := .f32)
      (mulf (F := Ideal) (s := S100000x128) (φ := .f32)
        (mulf (F := Ideal) (s := S100000x128) (φ := .f32)
          (subf (F := Ideal) (s := S100000x128) (φ := .f32) Y (val_main_v9 (F := Ideal) mu))
          (val_main_v9 (F := Ideal) (val_main_v33 (F := Ideal) v)))
        (val_main_v9 (F := Ideal) g))
      (val_main_v9 (F := Ideal) be))
    (val_main_call0_v0 (F := Ideal))

theorem bnStage_eq (Y : (⟨S100000x128, .f32⟩ : BufTy).Contents (Elt Ideal)) (g be mu v : (⟨S128, .f32⟩ : BufTy).Contents (Elt Ideal)) :
    bnStage Y g be mu v = bnRelu epsWord zeroWord g be mu v Y := by
  funext i
  show max ((((Y i - val_main_v9 (F := Ideal) mu i) * val_main_v9 (F := Ideal) (val_main_v33 (F := Ideal) v) i)
      * val_main_v9 (F := Ideal) g i) + val_main_v9 (F := Ideal) be i) (val_main_call0_v0 (F := Ideal) i) = _
  rw [rowB128, rowB128, rowB128, rowB128, val_main_call0_v0_apply, val_main_call0_cst_apply, val_main_v33_apply,
    val_main_v32_apply, val_main_v31_apply, val_main_cst_3_apply]
  rfl

theorem v43_eq :
    val_main_v43 (F := Ideal) x0 x1 x2 x3 x4 x5 x6 x7
      = bnStage (val_main_v27 (F := Ideal) x0 x1 x2 x3) x4 x5 x6 x7 := rfl

theorem v80_eq :
    val_main_v80 (F := Ideal) x0 x1 x2 x3 x4 x5 x6 x7 x8 x9 x10 x11 x12 x13
      = bnStage (val_main_v64 (F := Ideal) x0 x1 x2 x3 x4 x5 x6 x7 x8 x9) x10 x11 x12 x13 := rfl

/-! ## The count and the division -/

theorem v18_zero (i : S100000x128.Idx) : val_main_v18 (F := Ideal) i = 0 := by
  rw [val_main_v18_apply, val_main_cst_apply]; exact Ideal.ofBits_zero_f32

theorem v22_zero (i : S100000.Idx) : val_main_v22 (F := Ideal) i = 0 := by
  rw [val_main_v22_apply, val_main_cst_2_apply]; exact Ideal.ofBits_zero_f32

theorem v21_one (i : S1700000.Idx) : val_main_v21 (F := Ideal) i = 1 := by
  rw [val_main_v21_apply, val_main_cst_1_apply]; exact ofBits_one

/-- The scatter of ones reads the same column of destination words as the scatter of rows. -/
theorem v23_eq : val_main_v23 (F := Ideal) x1 = val_main_v19 (F := Ideal) x1 := rfl

/-- The second layer recomputes the same columns of words and the same splats. -/
theorem v53_eq : val_main_v53 (F := Ideal) x1 = val_main_v16 (F := Ideal) x1 := rfl
theorem v56_eq : val_main_v56 (F := Ideal) x1 = val_main_v19 (F := Ideal) x1 := rfl
theorem v60_eq : val_main_v60 (F := Ideal) x1 = val_main_v23 (F := Ideal) x1 := rfl
theorem v55_eq : val_main_v55 (F := Ideal) = val_main_v18 (F := Ideal) := rfl
theorem v58_eq : val_main_v58 (F := Ideal) = val_main_v21 (F := Ideal) := rfl
theorem v59_eq : val_main_v59 (F := Ideal) = val_main_v22 (F := Ideal) := rfl

/-- The second layer's count is the first layer's: the same scatter of the same operands. -/
theorem v61_eq : val_main_v61 (F := Ideal) x1 = val_main_v24 (F := Ideal) x1 := by
  unfold val_main_v61 val_main_v24
  rw [v59_eq, v58_eq, v60_eq]

theorem v62_eq : val_main_v62 (F := Ideal) x1 = val_main_v25 (F := Ideal) x1 := by
  unfold val_main_v62 val_main_v25
  rw [v61_eq]

theorem v63_eq : val_main_v63 (F := Ideal) x1 = val_main_v26 (F := Ideal) x1 := by
  unfold val_main_v63 val_main_v26
  rw [v62_eq]

/-- The printed dimension numbers of the scatter into a vector are the row-table ones. -/
theorem scatter1_rec : scatter_S100000_S1700000x1_S1700000_n_0_0_1
    = Cert.Rows.scatter1 100000 1700000 Facts₀.scatter_S100000_S1700000x1_S1700000_n_0_0_1_wf := rfl

/-- The accumulating scatter of ones into the zero vector is the count of arriving edges. -/
theorem cnt_v24 (n : Fin 100000) :
    val_main_v24 (F := Ideal) x1 (ix1 n) = cnt (val_main_v19 (F := Ideal) x1) n := by
  unfold val_main_v24
  rw [scatter1_rec, v23_eq]
  rw [host_scatter_cnt Facts₀.scatter_S100000_S1700000x1_S1700000_n_0_0_1_wf _ v22_zero _ _ v21_one n]

/-- Division by the count broadcast to a column and then along the rows is `divCnt`, over any table. -/
theorem div_v26 (U : FVec Ideal S100000x128 .f32) :
    Host.divf (F := Ideal) (s := S100000x128) (φ := .f32) U (val_main_v26 (F := Ideal) x1)
      = divCnt (val_main_v19 (F := Ideal) x1) U := by
  funext i
  obtain ⟨n, k, rfl⟩ : ∃ (n : Fin 100000) (k : Fin 128), i = ix2 n k := ⟨i 0, i 1, eq_ix2 i⟩
  have h : idx_main_v25 (idx_main_v26 (ix2 n k)) = ix1 n :=
    funext fun a => Fin.ext (by match a with | ⟨0, _⟩ => rfl)
  rw [Cert.Gnn.hostDivf_apply, divCnt_apply, val_main_v26_apply, val_main_v25_apply, h, cnt_v24]

theorem v27_eq :
    val_main_v27 (F := Ideal) x0 x1 x2 x3
      = divCnt (val_main_v19 (F := Ideal) x1) (val_main_v20 (F := Ideal) x0 x1 x2 x3) :=
  div_v26 x1 _

theorem v64_eq :
    val_main_v64 (F := Ideal) x0 x1 x2 x3 x4 x5 x6 x7 x8 x9
      = divCnt (val_main_v19 (F := Ideal) x1) (val_main_v57 (F := Ideal) x0 x1 x2 x3 x4 x5 x6 x7 x8 x9) := by
  unfold val_main_v64
  rw [v63_eq]
  exact div_v26 x1 _

/-! ## Gather and scatter -/

/-- The printed dimension numbers are the row-table ones. -/
theorem gather2_rec : gather_S100000x128_S1700000x1_S1700000x128_1_0_n_n_0_1_1128
    = Cert.Rows.gather2 100000 128 1700000 Facts₀.gather_S100000x128_S1700000x1_S1700000x128_1_0_n_n_0_1_1128_wf := rfl
theorem scatter2_rec : scatter_S100000x128_S1700000x1_S1700000x128_1_0_0_1
    = Cert.Rows.scatter2 100000 128 1700000 Facts₀.scatter_S100000x128_S1700000x1_S1700000x128_1_0_0_1_wf := rfl

/-- The gather of whole rows at a column of source words is `rows`, over any table and column. -/
theorem gather_of (Y : (⟨S100000x128, .f32⟩ : BufTy).Contents (Elt Ideal)) (s : Col 1700000) :
    Host.gather gather_S100000x128_S1700000x1_S1700000x128_1_0_n_n_0_1_1128 Y s
      = rows (N := 100000) (by decide) s Y := by
  rw [gather2_rec]
  exact gather_rows (by decide) _ Y s

/-- The accumulating scatter of rows into a zero table is `seg`, over any rows and column. -/
theorem scatter_of (Z : FVec Ideal S100000x128 .f32) (hZ : ∀ i, Z i = (0 : EReal))
    (d : Col 1700000) (u : FVec Ideal S1700000x128 .f32) :
    Host.scatterAdd (F := Ideal) (φ := .f32) scatter_S100000x128_S1700000x1_S1700000x128_1_0_0_1 Z d u = seg d u := by
  rw [scatter2_rec]
  show Ideal.hostScatterAdd _ Z d u = _
  rw [scatter_seg _ _ hZ]

theorem v17_eq :
    val_main_v17 (F := Ideal) x0 x1 x2 x3
      = rows (N := 100000) (by decide) (val_main_v16 (F := Ideal) x1) (val_main_v10 (F := Ideal) x0 x2 x3) :=
  gather_of _ _

theorem v54_eq :
    val_main_v54 (F := Ideal) x0 x1 x2 x3 x4 x5 x6 x7 x8 x9
      = rows (N := 100000) (by decide) (val_main_v16 (F := Ideal) x1)
          (val_main_v47 (F := Ideal) x0 x1 x2 x3 x4 x5 x6 x7 x8 x9) := by
  unfold val_main_v54
  rw [v53_eq]
  exact gather_of _ _

theorem v20_eq :
    val_main_v20 (F := Ideal) x0 x1 x2 x3
      = seg (val_main_v19 (F := Ideal) x1) (val_main_v17 (F := Ideal) x0 x1 x2 x3) :=
  scatter_of _ v18_zero _ _

theorem v57_eq :
    val_main_v57 (F := Ideal) x0 x1 x2 x3 x4 x5 x6 x7 x8 x9
      = seg (val_main_v19 (F := Ideal) x1) (val_main_v54 (F := Ideal) x0 x1 x2 x3 x4 x5 x6 x7 x8 x9) := by
  unfold val_main_v57
  rw [v55_eq, v56_eq]
  exact scatter_of _ v18_zero _ _

/-! ## The chain -/

/-- THE REFERENCE'S RESULT is the specification's `netRef` of its arguments, at the gather's column of source words
    and the scatter's column of destination words. -/
theorem ref_value :
    val_main_v89 (F := Ideal) x0 x1 x2 x3 x4 x5 x6 x7 x8 x9 x10 x11 x12 x13 x14 x15 x16 x17
      = netRef (N := 100000) (by decide) (val_main_v16 (F := Ideal) x1) (val_main_v19 (F := Ideal) x1)
          x0 x2 x3 x4 x5 x6 x7 x8 x9 x10 x11 x12 x13 x14 x15 x16 x17 := by
  rw [lin_v89, v85_eq, lin_v84, v80_eq, bnStage_eq, v64_eq, v57_eq, v54_eq, v47_eq, lin_v10, v43_eq, bnStage_eq,
    v27_eq, v20_eq, v17_eq, lin_v10]
  rfl

end Cert.ReferenceIdeal.Stages

end
-- ==== Proof.Reached.lean ====
/-
  Every node is the destination of some edge: its own self-loop.

  The destination column has 1700000 words: the 1600000 words of the edge list's second row,
  followed by the 100000 counting words 0, 1, …, 99999. So the word at position 1600000 + n is the
  word n, and for n below 100000 that word denotes the integer n.
-/
import proofs.«167313_j82454782148695_2_alg».proof.Proof.Gen.ReferenceIdeal.Read
import Idealize.ShloMosaic.Lib.Pipeline.Value
import Idealize.ShloMosaic.Lib.ValueIdx

noncomputable section

namespace Cert.ReferenceIdeal.Reached

open Cert.ReferenceIdeal Cert.ReferenceIdeal.Gen Cert.ReferenceIdeal.Read
open Idealize.ShloMosaic Idealize.ShloMosaic.ValueIdx Idealize.ShloMosaic.StableHlo

/-- A 32-bit word written from a natural number below 100000 denotes that number as a signed integer:
    the number is below 2^31, so the sign bit is clear and no wrap-around happens. -/
theorem toInt_ofNat_small (n : Nat) (h : n < 100000) : (BitVec.ofNat 32 n).toInt = (n : ℤ) := by
  have h32 : n % 2 ^ 32 = n := Nat.mod_eq_of_lt (by omega)
  rw [BitVec.toInt_eq_toNat_of_lt (by rw [BitVec.toNat_ofNat, h32]; omega), BitVec.toNat_ofNat, h32]

/-- The position of node `n`'s self-loop in the destination column. -/
abbrev selfLoop (n : Fin 100000) : Fin 1700000 := ⟨1600000 + n.val, by have := n.isLt; omega⟩

/-- The joined column at position 1600000 + n is the n-th counting word: the position lies past the first
    piece's 1600000 entries, so it reads the second piece at n. -/
theorem v6_selfLoop (x1 : (⟨S2x1600000, .i32⟩ : BufTy).Contents (Elt Ideal)) (n : Fin 100000) :
    val_main_v6 (F := Ideal) x1 (ix1 (selfLoop n)) = BitVec.ofNat 32 n.val := by
  unfold val_main_v6
  generalize val_main_v5 (F := Ideal) x1 = y
  rw [concatenate_pair_apply_right (0 : Fin S1700000.rank) y (val_main_v0 (F := Ideal))
    concatenates_S1600000_S100000_S1700000_d0 (ix1 (selfLoop n)) rfl rfl (ix1 n)
    (fun b hb => absurd (Fin.ext (by have hb1 : b.val < 1 := b.isLt; show b.val = 0; omega)) hb)
    (by show n.val + 1600000 = 1600000 + n.val; omega)]
  exact val_main_v0_apply (F := Ideal) (ix1 n)

/-- Every node `n` is the destination of an edge: the edge at position 1600000 + n, its self-loop. -/
theorem reached (x1 : (⟨S2x1600000, .i32⟩ : BufTy).Contents (Elt Ideal)) (n : Fin 100000) :
    ∃ e : Fin 1700000, ((Cert.ReferenceIdeal.Read.val_main_v19 (F := Ideal) x1)
      (Idealize.ShloMosaic.ValueIdx.ix2 e (0 : Fin 1))).toInt = (n.val : ℤ) := by
  refine ⟨selfLoop n, ?_⟩
  rw [val_main_v19_apply]
  have hidx : idx_main_v19 (ix2 (selfLoop n) (0 : Fin 1)) = ix1 (selfLoop n) := by
    funext a
    match a with
    | ⟨0, _⟩ => rfl
  rw [hidx, v6_selfLoop]
  exact toInt_ofNat_small n.val n.isLt

end Cert.ReferenceIdeal.Reached
-- ==== Proof.Finite.lean ====
/-
  The precondition read back: each float argument array passes `jnp.all(|x| < +inf)`, an `and`-reduction over every
  axis of the element test `|x| < +inf`, and the seventeen tests are joined by `and`. When the result is 1, every
  element of every tested array satisfies `max x (-x) < ⊤` as an extended real, so it is neither `⊤` nor `⊥`: it is a
  real number. Stated here for the three arrays the value proof reads.
-/
import proofs.«167313_j82454782148695_2_alg».proof.Pre_finite_inputs
import Idealize.ShloMosaic.PureOps.Ideal
import Idealize.ShloMosaic.Lib.ReduceAll
import Idealize.ShloMosaic.Lib.ValueIdx

noncomputable section

namespace Cert.Gnn.Finite

open Idealize.ShloMosaic Idealize.ShloMosaic.ValueIdx
open Cert.Pre_finite_inputs

/-- The rank-0 result shape has one index. -/
instance : Subsingleton S_.Idx := ⟨fun a b => funext fun d => d.elim0⟩

/-- The f32 pattern of `+inf` denotes `⊤`. -/
theorem ofBits_inf : Ideal.ofBits .f32 0x7F800000#32 = (⊤ : EReal) := by
  simp [Ideal.ofBits, Ideal.ieee]

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element test `|x| < +inf` that came out 1 says the element is a real number. -/
theorem real_of_test (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  by_cases hlt : max (x : EReal) (-(x : EReal)) < ⊤
  · exact real_of_abs_lt_top x hlt
  · simp [hlt] at h'

/-- One array's `jnp.all(|x| < +inf)` that came out 1 says every element of the array is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) :
    ∀ i, ∃ r : ℝ, x i = (r : EReal) := fun i =>
  real_of_test (x i) (Host.reduce_andi_all _ _ hr hu ix0 e i)

/-- The left operand of an `and` of two one-bit results that is 1 is 1. -/
theorem andi_left {a b : IVec S_ 1} (h : andi a b ix0 = 1#1) : a ix0 = 1#1 :=
  (IntOp.andi_eq_one.1 h).1

/-- The right operand of an `and` of two one-bit results that is 1 is 1. -/
theorem andi_right {a b : IVec S_ 1} (h : andi a b ix0 = 1#1) : b ix0 = 1#1 :=
  (IntOp.andi_eq_one.1 h).2

/-- THE PRECONDITION DECODED: when `finite_inputs` of the eighteen argument arrays is 1, every element of argument 0
    ([100000,128]), argument 2 ([128,128]) and argument 3 ([128]) is a real number. The seventeen tests are joined
    left-nested, `(((t0 ∧ t2) ∧ t3) ∧ t4) ∧ …`, so the three wanted tests are the innermost: fourteen left projections
    reach `(t0 ∧ t2) ∧ t3`. -/
theorem real_of_pre [Facts]
    (a0 : FVec Ideal S100000x128 .f32) (a1 : IVec S2x1600000 32) (a2 : FVec Ideal S128x128 .f32)
    (a3 : FVec Ideal S128 .f32) (a4 : FVec Ideal S128 .f32) (a5 : FVec Ideal S128 .f32) (a6 : FVec Ideal S128 .f32)
    (a7 : FVec Ideal S128 .f32) (a8 : FVec Ideal S128x128 .f32) (a9 : FVec Ideal S128 .f32)
    (a10 : FVec Ideal S128 .f32) (a11 : FVec Ideal S128 .f32) (a12 : FVec Ideal S128 .f32)
    (a13 : FVec Ideal S128 .f32) (a14 : FVec Ideal S128x64 .f32) (a15 : FVec Ideal S64 .f32)
    (a16 : FVec Ideal S64x2 .f32) (a17 : FVec Ideal S2 .f32)
    (h : fn (F := Ideal) a0 a1 a2 a3 a4 a5 a6 a7 a8 a9 a10 a11 a12 a13 a14 a15 a16 a17 = fun _ => 1#1) :
    (∀ i, ∃ r : ℝ, a0 i = (r : EReal)) ∧ (∀ i, ∃ r : ℝ, a2 i = (r : EReal))
      ∧ (∀ i, ∃ r : ℝ, a3 i = (r : EReal)) := by
  have e := congrFun h ix0
  dsimp only [fn, fn_part1, fn_part2, fn_part3, fn_part4] at e
  -- the fourteen outer tests (arguments 4 to 17) are dropped
  have e13 := andi_left (andi_left (andi_left (andi_left (andi_left (andi_left (andi_left
    (andi_left (andi_left (andi_left (andi_left (andi_left (andi_left (andi_left e)))))))))))))
  have e8 := andi_left e13
  exact ⟨real_of_all a0 _ _ _ (andi_left e8), real_of_all a2 _ _ _ (andi_right e8),
    real_of_all a3 _ _ _ (andi_right e13)⟩

end Cert.Gnn.Finite

end
-- ==== Proof.SpecLaws.lean ====
/-
  The two laws that join the two programs' aggregation stages (stated in Spec.lean's words).

  `div_cnt`: a node's count is a sum of ones over the edges arriving at it, a natural number, and some
  edge arrives at every node, so the count is a nonzero real and dividing by it is multiplying by its
  reciprocal on every extended real.

  `mean_lin`: with real entries every sum is a real sum; the affine map is linear in the row, and the bias,
  added once per arriving edge, is divided by the number of arriving edges.
-/
import proofs.«167313_j82454782148695_2_alg».proof.Proof.Spec

noncomputable section

open scoped BigOperators

namespace Cert.Gnn

open Idealize.ShloMosaic Idealize.ShloMosaic.ValueIdx

/-- The coercion of a finite real sum is the sum of the coercions. -/
theorem coe_sum {ι : Type} (s : Finset ι) (f : ι → ℝ) :
    ((∑ i ∈ s, f i : ℝ) : EReal) = ∑ i ∈ s, (f i : EReal) := by
  classical
  refine Finset.induction_on s (by simp) ?_
  intro x t hx ih
  rw [Finset.sum_insert hx, Finset.sum_insert hx, EReal.coe_add, ih]

/-- A sum of ones over the edges satisfying `p` is the coercion of the real count. -/
theorem cnt_coe {M : Nat} (p : Fin M → Prop) [DecidablePred p] :
    (0 : EReal) + ∑ e : Fin M, (if p e then (1 : EReal) else 0)
      = ((∑ e : Fin M, (if p e then (1 : ℝ) else 0) : ℝ) : EReal) := by
  rw [zero_add, coe_sum]
  refine Finset.sum_congr rfl fun e _ => ?_
  split_ifs <;> simp

/-- The real count is nonzero when some edge satisfies `p`. -/
theorem cnt_ne_zero {M : Nat} (p : Fin M → Prop) [DecidablePred p] (h : ∃ e, p e) :
    (∑ e : Fin M, (if p e then (1 : ℝ) else 0)) ≠ 0 := by
  obtain ⟨e, he⟩ := h
  have hpos : 0 < ∑ e : Fin M, (if p e then (1 : ℝ) else 0) := by
    apply Finset.sum_pos'
    · intro i _; split_ifs <;> norm_num
    · exact ⟨e, Finset.mem_univ e, by simp [he]⟩
  exact ne_of_gt hpos

/-- Over the reals: the mean of the affine images is the affine image of the mean. -/
theorem mean_lin_real {M K : Nat} (p : Fin M → Prop) [DecidablePred p] (ar : Fin M → Fin K → ℝ)
    (Wr : Fin K → ℝ) (br c : ℝ)
    (hcdef : c = ∑ e : Fin M, (if p e then (1 : ℝ) else 0)) (hc : c ≠ 0) :
    (∑ e : Fin M, (if p e then (∑ k : Fin K, ar e k * Wr k) + br else 0)) * (1 / c)
      = (∑ k : Fin K, ((∑ e : Fin M, (if p e then ar e k else 0)) * (1 / c)) * Wr k) + br := by
  have h1 : ∀ e, (if p e then (∑ k : Fin K, ar e k * Wr k) + br else 0)
      = (∑ k : Fin K, (if p e then ar e k else 0) * Wr k) + (if p e then (1 : ℝ) else 0) * br := by
    intro e; split_ifs <;> simp
  simp only [h1]
  rw [Finset.sum_add_distrib, Finset.sum_comm, ← Finset.sum_mul, ← hcdef, add_mul]
  have h2 : c * br * (1 / c) = br := by field_simp
  rw [h2]
  congr 1
  rw [Finset.sum_mul]
  refine Finset.sum_congr rfl fun k _ => ?_
  rw [← Finset.sum_mul]; ring

/-- On the extended reals, with real entries. -/
theorem mean_lin_ereal {M K : Nat} (p : Fin M → Prop) [DecidablePred p] (h : ∃ e, p e)
    (ar : Fin M → Fin K → ℝ) (Wr : Fin K → ℝ) (br : ℝ) :
    Ideal.div ((0 : EReal) + ∑ e : Fin M,
          (if p e then (∑ k : Fin K, (ar e k : EReal) * (Wr k : EReal)) + (br : EReal) else 0))
        ((0 : EReal) + ∑ e : Fin M, (if p e then (1 : EReal) else 0))
      = (∑ k : Fin K, (((0 : EReal) + ∑ e : Fin M, (if p e then (ar e k : EReal) else 0))
            * Ideal.div 1 ((0 : EReal) + ∑ e : Fin M, (if p e then (1 : EReal) else 0)))
            * (Wr k : EReal)) + (br : EReal) := by
  have hne := cnt_ne_zero p h
  rw [cnt_coe p, Ideal.div_coe hne, Ideal.div_coe hne, one_mul]
  have hnum : (0 : EReal) + ∑ e : Fin M,
        (if p e then (∑ k : Fin K, (ar e k : EReal) * (Wr k : EReal)) + (br : EReal) else 0)
      = ((∑ e : Fin M, (if p e then (∑ k : Fin K, ar e k * Wr k) + br else 0) : ℝ) : EReal) := by
    rw [zero_add, coe_sum]
    refine Finset.sum_congr rfl fun e _ => ?_
    split_ifs
    · rw [EReal.coe_add, coe_sum]; simp only [EReal.coe_mul]
    · simp
  have hseg : ∀ k, (0 : EReal) + ∑ e : Fin M, (if p e then (ar e k : EReal) else 0)
      = ((∑ e : Fin M, (if p e then ar e k else 0) : ℝ) : EReal) := by
    intro k
    rw [zero_add, coe_sum]
    refine Finset.sum_congr rfl fun e _ => ?_
    split_ifs <;> simp
  rw [hnum]
  simp only [hseg]
  simp only [← EReal.coe_mul]
  rw [← coe_sum, ← EReal.coe_add]
  exact congrArg _ (mean_lin_real p ar Wr br _ rfl hne)

/-- Dividing by a count that some edge reaches is multiplying by its reciprocal. -/
theorem div_cnt {N C M : Nat} (dst : Col M) (u : Mat N C)
    (hc : ∀ n : Fin N, ∃ e : Fin M, (dst (ix2 e (0 : Fin 1))).toInt = (n.val : ℤ)) :
    divCnt dst u = scaleInv dst u := by
  funext i
  show Ideal.div (u i) (cnt (N := N) dst (i 0)) = u i * Ideal.div 1 (cnt (N := N) dst (i 0))
  have hne := cnt_ne_zero (fun e : Fin M => (dst (ix2 e (0 : Fin 1))).toInt = ((i 0).val : ℤ)) (hc (i 0))
  have hcnt : cnt (N := N) dst (i 0)
      = ((∑ e : Fin M, (if (dst (ix2 e (0 : Fin 1))).toInt = ((i 0).val : ℤ) then (1 : ℝ) else 0) : ℝ) : EReal) :=
    cnt_coe (fun e : Fin M => (dst (ix2 e (0 : Fin 1))).toInt = ((i 0).val : ℤ))
  rw [hcnt, Ideal.div_coe hne, Ideal.div_coe hne, one_mul]

/-- The mean of the affine images is the affine image of the mean: with real entries and every node
    reached by some edge, `(Σ_e (a_e·W + b)) / cnt = ((Σ_e a_e) · (1 / cnt))·W + b`. -/
theorem mean_lin {N K J M : Nat} (dst : Col M) (a : Mat M K) (W : Mat K J) (b : Row J)
    (ha : ∀ i, ∃ r : ℝ, a i = (r : EReal)) (hW : ∀ i, ∃ r : ℝ, W i = (r : EReal))
    (hb : ∀ i, ∃ r : ℝ, b i = (r : EReal))
    (hc : ∀ n : Fin N, ∃ e : Fin M, (dst (ix2 e (0 : Fin 1))).toInt = (n.val : ℤ)) :
    divCnt (N := N) dst (seg dst (lin W b a)) = lin W b (scaleInv dst (seg dst a)) := by
  choose ar har using ha
  choose Wr hWr using hW
  choose br hbr using hb
  obtain rfl : a = fun i => (ar i : EReal) := funext har
  obtain rfl : W = fun i => (Wr i : EReal) := funext hWr
  obtain rfl : b = fun i => (br i : EReal) := funext hbr
  funext i
  exact mean_lin_ereal (fun e : Fin M => (dst (ix2 e (0 : Fin 1))).toInt = ((i 0).val : ℤ)) (hc (i 0))
    (fun e k => ar (ix2 e k)) (fun k => Wr (ix2 k (i 1))) (br (ix1 (i 1)))

/-- Carrying rows along the edges commutes with the affine map, which acts on each row by itself. -/
theorem rows_lin {N M K J : Nat} (hN : 0 < N) (src : Col M) (W : Mat K J) (b : Row J) (x : Mat N K) :
    rows hN src (lin W b x) = lin W b (rows hN src x) := rfl

/-- The two forms of the network agree when the node table, the first layer's weights and its bias are
    real and every node is reached by some edge: the first layer by `mean_lin` (the gathered rows of a real
    table are real), the second by `div_cnt`; everything after each aggregation is the same function. -/
theorem net_eq {N M K H C1 C2 : Nat} (hN : 0 < N) (src dst : Col M) (x : Mat N K)
    (W1 : Mat K H) (b1 g1 be1 m1 v1 : Row H) (W2 : Mat H H) (b2 g2 be2 m2 v2 : Row H)
    (Wc1 : Mat H C1) (bc1 : Row C1) (Wc2 : Mat C1 C2) (bc2 : Row C2)
    (hx : ∀ i, ∃ r : ℝ, x i = (r : EReal)) (hW : ∀ i, ∃ r : ℝ, W1 i = (r : EReal))
    (hb : ∀ i, ∃ r : ℝ, b1 i = (r : EReal))
    (hc : ∀ n : Fin N, ∃ e : Fin M, (dst (ix2 e (0 : Fin 1))).toInt = (n.val : ℤ)) :
    netRef hN src dst x W1 b1 g1 be1 m1 v1 W2 b2 g2 be2 m2 v2 Wc1 bc1 Wc2 bc2
      = netKer hN src dst x W1 b1 g1 be1 m1 v1 W2 b2 g2 be2 m2 v2 Wc1 bc1 Wc2 bc2 := by
  unfold netRef netKer
  rw [rows_lin hN src W1 b1 x, mean_lin (N := N) dst (rows hN src x) W1 b1 (fun i => hx _) hW hb hc, div_cnt dst _ hc]

end Cert.Gnn

end
-- ==== Proof.lean ====
/-
  `Cert.Claim`: the two-layer graph network computed by two kernels among host operations against the
  plain reference, at the ideal values.

  Both programs aggregate along the same edges: the edge list with one self-loop per node appended, so
  that every node is the destination of at least one edge. The reference maps every node affinely
  (`x·W + b`), sums the images over the edges arriving at a node and divides by their number. The kernels'
  program sums the raw rows, multiplies by the reciprocal of that number and applies the affine map
  afterwards (first layer), or sums the mapped rows and multiplies by the reciprocal (second layer). With
  real entries the first is the linearity of the affine map, the bias divided by exactly the number of
  arriving edges; the second is that dividing by a nonzero real is multiplying by its reciprocal. The
  normalisations, positive parts and the classifier are the same functions on both sides, and every change
  of float format is the identity.

  The kernels' result is read off the run of the whole program with every buffer named; the reference's off
  its own run, stage by stage. The precondition gives that the node table, the first layer's weights and
  its bias are real; nothing else of it is used.
-/
import proofs.«167313_j82454782148695_2_alg».proof.Defs
import proofs.«167313_j82454782148695_2_alg».proof.Proof.Gen.Kernel
import proofs.«167313_j82454782148695_2_alg».proof.Proof.Gen.Kernel.Skeleton
import proofs.«167313_j82454782148695_2_alg».proof.Proof.Gen.Kernel.Launch
import proofs.«167313_j82454782148695_2_alg».proof.Proof.Gen.Kernel.Points
import proofs.«167313_j82454782148695_2_alg».proof.Proof.Gen.Kernel.Frame
import proofs.«167313_j82454782148695_2_alg».proof.Proof.Gen.KernelIdeal
import proofs.«167313_j82454782148695_2_alg».proof.Proof.Gen.KernelIdeal.Skeleton
import proofs.«167313_j82454782148695_2_alg».proof.Proof.Gen.KernelIdeal.Launch
import proofs.«167313_j82454782148695_2_alg».proof.Proof.Gen.KernelIdeal.Points
import proofs.«167313_j82454782148695_2_alg».proof.Proof.Gen.KernelIdeal.Frame
import proofs.«167313_j82454782148695_2_alg».proof.Proof.Gen.ReferenceIdeal
import proofs.«167313_j82454782148695_2_alg».proof.Proof.Gen.Pre_finite_inputs
import proofs.«167313_j82454782148695_2_alg».proof.Proof.Gen.ReferenceIdeal.Run
import proofs.«167313_j82454782148695_2_alg».proof.Proof.Gen.ReferenceIdeal.Read
import proofs.«167313_j82454782148695_2_alg».proof.Proof.RunAll
import proofs.«167313_j82454782148695_2_alg».proof.Proof.KernelHost
import proofs.«167313_j82454782148695_2_alg».proof.Proof.RefStages
import proofs.«167313_j82454782148695_2_alg».proof.Proof.Reached
import proofs.«167313_j82454782148695_2_alg».proof.Proof.Finite
import proofs.«167313_j82454782148695_2_alg».proof.Proof.SpecLaws
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On real node features, first-layer weights and first-layer bias the reference's result is the kernels'
    form of the network: its own form, then linearity of the affine map under the mean and the quotient by a
    nonzero count as a product with the reciprocal. Every node is reached by its self-loop, so no count is zero. -/
theorem ref_net
    (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S128x128, .f32⟩ : BufTy).Contents (Elt Ideal)) (x3 x4 x5 x6 x7 : (⟨Cert.ReferenceIdeal.S128, .f32⟩ : BufTy).Contents (Elt Ideal))
  (x8 : (⟨Cert.ReferenceIdeal.S128x128, .f32⟩ : BufTy).Contents (Elt Ideal)) (x9 x10 x11 x12 x13 : (⟨Cert.ReferenceIdeal.S128, .f32⟩ : BufTy).Contents (Elt Ideal))
  (x14 : (⟨Cert.ReferenceIdeal.S128x64, .f32⟩ : BufTy).Contents (Elt Ideal)) (x15 : (⟨Cert.ReferenceIdeal.S64, .f32⟩ : BufTy).Contents (Elt Ideal))
  (x16 : (⟨Cert.ReferenceIdeal.S64x2, .f32⟩ : BufTy).Contents (Elt Ideal)) (x17 : (⟨Cert.ReferenceIdeal.S2, .f32⟩ : BufTy).Contents (Elt Ideal))
    (hx : ∀ i, ∃ r : ℝ, x0 i = (r : EReal)) (hW : ∀ i, ∃ r : ℝ, x2 i = (r : EReal))
    (hb : ∀ i, ∃ r : ℝ, x3 i = (r : EReal)) :
    Cert.ReferenceIdeal.Read.val_main_v89 (F := Ideal) x0 x1 x2 x3 x4 x5 x6 x7 x8 x9 x10 x11 x12 x13 x14 x15 x16 x17
      = Cert.Gnn.netKer (N := 100000) (by decide) (Cert.ReferenceIdeal.Read.val_main_v16 (F := Ideal) x1)
          (Cert.ReferenceIdeal.Read.val_main_v19 (F := Ideal) x1)
          x0 x2 x3 x4 x5 x6 x7 x8 x9 x10 x11 x12 x13 x14 x15 x16 x17 :=
  (Cert.ReferenceIdeal.Stages.ref_value x0 x1 x2 x3 x4 x5 x6 x7 x8 x9 x10 x11 x12 x13 x14 x15 x16 x17).trans
    (Cert.Gnn.net_eq (by decide) _ _ x0 x2 x3 x4 x5 x6 x7 x8 x9 x10 x11 x12 x13 x14 x15 x16 x17 hx hW hb
      (Cert.ReferenceIdeal.Reached.reached x1))

/-- The reference's result on a memory that agrees with the kernels' on every argument, under the
    precondition on the kernels' memory: the kernels' form of the network of the kernels' arguments. -/
theorem ref_half
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (a0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (a1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (a2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (a3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (a4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (a5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (a6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (a7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (a8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (a9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (a10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (a11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (a12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (a13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (a14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (a15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15)))
    (a16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16)))
    (a17 : (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))) :
    Cert.ReferenceIdeal.Read.val_main_v89 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      = Cert.Gnn.netKer (N := 100000) (by decide) (Cert.KernelIdeal.HostValue.srcC m c)
      (Cert.KernelIdeal.HostValue.dstC m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)) := by
  obtain ⟨hx, hW, hb⟩ := Cert.Gnn.Finite.real_of_pre _ _ _ _ _ _ _ _ _ _ _ _ _ _ _ _ _ _ (hpre c)
  rw [a0, a1, a2, a3, a4, a5, a6, a7, a8, a9, a10, a11, a12, a13, a14, a15, a16, a17]
  exact ref_net _ _ _ _ _ _ _ _ _ _ _ _ _ _ _ _ _ _ hx hW hb

/-- Both runs end with the result array at the kernels' form of the network of the arguments. -/
theorem algebraic : Cert.algebraic_KernelIdeal_ReferenceIdeal := by
  intro m ρ m' ρ' hpre hagree
  refine ⟨fun c => Cert.Gnn.netKer (N := 100000) (by decide) (Cert.KernelIdeal.HostValue.srcC m c)
      (Cert.KernelIdeal.HostValue.dstC m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.HostValue.result_eq m ρ c), (h c).2⟩)
      (Cert.KernelIdeal.RunAll.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17⟩ := hagree c
    rw [Cert.ReferenceIdeal.Read.val_main_v89_eq]
    exact ref_half m m' c hpre a0 a1 a2 a3 a4 a5 a6 a7 a8 a9 a10 a11 a12 a13 a14 a15 a16 a17

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
